-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 58
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S1x128, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .i1⟩
  | .hbm, ⟨45, _⟩ => ⟨S_, .f32⟩
  | .hbm, ⟨46, _⟩ => ⟨S100000x128, .f32⟩
  | .hbm, ⟨47, _⟩ => ⟨S100000x128, .i1⟩
  | .hbm, ⟨48, _⟩ => ⟨S_, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_cst_1 : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_v4 : Ref sig .tc := ⟨.hbm, 51, rfl⟩
abbrev main_call1_v5 : Ref sig .tc := ⟨.hbm, 52, rfl⟩
abbrev main_call1_cst_2 : Ref sig .tc := ⟨.hbm, 53, rfl⟩
abbrev main_call1_v6 : Ref sig .tc := ⟨.hbm, 54, rfl⟩
abbrev main_call1_v7 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_5 : Ref sig .tc := ⟨.hbm, 59, rfl⟩
abbrev main_v29 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_7 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.Spec.lean ====
/-
  One-hop graph propagation with symmetric degree normalisation, twice, around a dense layer with ELU — and the law
  that lets the second dense map be applied before the second propagation.

  Nodes `ν`, edges `ε`; `S n` is the set of edges arriving at node `n`, `r e` the node edge `e` leaves, `nrm n` the
  node's normalisation factor. One propagation of a feature array `X` is, at node `n` and feature `c`,
  `nrm n · Σ_{e ∈ S n} X (r e) c · nrm (r e)`. The reference computes
      out = P(elu(P(F) · W₁ + b₁)) · W₂ + b₂,
  the other program applies `W₂` first and propagates the narrower array,
      out = P(elu(P(F) · W₁ + b₁) · W₂) + b₂.
  Propagation is linear in the feature index, so the two agree — but on the extended reals moving a factor across a finite
  sum needs every value involved to be a real number; the inputs are, hence so is everything computed from them.
-/
import Idealize.ShloMosaic.PureOps.Ideal
import Idealize.ShloMosaic.Lib.IdealHost

noncomputable section

open scoped BigOperators

namespace Cert.Sgc

open Idealize.ShloMosaic

/-! ## Real-valued extended reals -/

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  rcases max_choice x y with h | h <;> rw [h] <;> assumption

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## ELU, in the two spellings -/

/-- The zero and one single-precision words. -/
abbrev w0 : EReal := Ideal.ofBits .f32 0x00000000#32
abbrev w1 : EReal := Ideal.ofBits .f32 0x3F800000#32

/-- ELU as a library spells it: `x` where `x > 0`; elsewhere `1 · (exp(x') − 1)` with `x'` the argument where it is not
    positive and zero where it is. -/
def eluRef (x : EReal) : EReal :=
  Scalar.select (Ideal.cmp .ogt x w0) x
    (w1 * (Ideal.exp (Scalar.select (Ideal.cmp .ogt x w0) w0 x) - 1))

/-- ELU written out: `x` where `x > 0`, `exp x − 1` elsewhere. -/
def eluKer (x : EReal) : EReal :=
  Scalar.select (Ideal.cmp .ogt x w0) x (Ideal.exp x - w1)

theorem eluKer_eq_eluRef (x : EReal) : eluKer x = eluRef x := by
  unfold eluKer eluRef
  by_cases h : Ideal.cmp .ogt x w0 = 1
  · simp only [Scalar.select, h, if_true]
  · simp only [Scalar.select, h, if_false, w1, Ideal.ofBits_one_f32, one_mul]

theorem eluRef_real (x : ℝ) : IsReal (eluRef (x : EReal)) := by
  unfold eluRef
  have hexp : ∀ y : ℝ, IsReal (Ideal.exp (y : EReal) - 1) := fun y =>
    (show IsReal (Ideal.exp (y : EReal)) from ⟨Real.exp y, rfl⟩).sub ⟨1, by norm_cast⟩
  have h0 : w0 = ((0 : ℝ) : EReal) := by simp [w0, Ideal.ofBits_zero_f32]
  by_cases h : Ideal.cmp .ogt (x : EReal) w0 = 1
  · simp only [Scalar.select, h, if_true]; exact isReal_coe x
  · simp only [Scalar.select, h, if_false, w1, Ideal.ofBits_one_f32, one_mul]; exact hexp x

/-! ## The normalisation factor -/

/-- The single-precision word of the exponent −1/2. -/
abbrev wh : EReal := Ideal.ofBits .f32 0xBF000000#32

theorem wh_real : IsReal wh :=
  ⟨-(1 / 2), by simp [wh, Ideal.ofBits, Ideal.ieee, -EReal.coe_mul, -EReal.coe_neg]; norm_num⟩

section Norm

variable {ν ε : Type} (S : ν → Finset ε)

/-- The in-degree of a node: one for every edge arriving at it, added to zero. -/
def degOf (n : ν) : EReal := w0 + ∑ _e ∈ S n, w1

/-- The node's factor: its in-degree, clamped below at one, to the power −1/2. -/
def nrmOf (n : ν) : EReal := Ideal.pow (max w1 (degOf S n)) wh

theorem degOf_real (n : ν) : IsReal (degOf S n) := by
  unfold degOf
  refine IsReal.add ⟨0, by simp [w0, Ideal.ofBits_zero_f32]⟩ (isReal_sum _ _ fun _ _ => ⟨1, by simp [w1, Ideal.ofBits_one_f32]⟩)

theorem nrmOf_real (n : ν) : IsReal (nrmOf S n) := by
  unfold nrmOf
  obtain ⟨x, hx⟩ : IsReal (max w1 (degOf S n)) := IsReal.max ⟨1, by simp [w1, Ideal.ofBits_one_f32]⟩ (degOf_real S n)
  obtain ⟨y, hy⟩ := wh_real
  rw [hx, hy]
  exact ⟨Real.rpow x y, rfl⟩

end Norm

/-! ## The dense block at one entry -/

/-- One row through the two dense layers: the row `A` scaled by `s`, times `W₁`, plus `b₁`, ELU written out, times `W₂`,
    read at output feature `j`. -/
def denseAt {a b c : ℕ} (A : Fin a → EReal) (s : EReal) (W1 : Fin a → Fin b → EReal) (b1 : Fin b → EReal)
    (W2 : Fin b → Fin c → EReal) (j : Fin c) : EReal :=
  ∑ k, eluKer (∑ l, (A l * s) * W1 l k + b1 k) * W2 k j

/-! ## The two programs, index by index -/

section Programs

variable {ν ε : Type} {a b c : ℕ}
variable (S : ν → Finset ε) (r : ε → ν) (nrm : ν → EReal)

/-- The raw aggregation of one propagation: over the edges arriving at `n`, the source's feature times the source's factor. -/
def agg {κ : Type} (X : ν → κ → EReal) (n : ν) (k : κ) : EReal := ∑ e ∈ S n, X (r e) k * nrm (r e)

variable (F : ν → Fin a → EReal) (W1 : Fin a → Fin b → EReal) (b1 : Fin b → EReal)
  (W2 : Fin b → Fin c → EReal) (b2 : Fin c → EReal)

/-- The reference's hidden layer: ELU of the propagated features times `W₁`, plus `b₁`. -/
def refHidden (n : ν) (k : Fin b) : EReal := eluRef (∑ l, (nrm n * agg S r nrm F n l) * W1 l k + b1 k)

/-- The reference's result: the propagated hidden layer times `W₂`, plus `b₂`. -/
def refOut (n : ν) (j : Fin c) : EReal :=
  ∑ k, (nrm n * agg S r nrm (refHidden S r nrm F W1 b1) n k) * W2 k j + b2 j

/-- The other program's hidden layer (the factor written on the right, ELU written out). -/
def kerHidden (n : ν) (k : Fin b) : EReal := eluKer (∑ l, (agg S r nrm F n l * nrm n) * W1 l k + b1 k)

/-- Its dense output, `W₂` applied before the second propagation. -/
def kerDense (n : ν) (j : Fin c) : EReal := ∑ k, kerHidden S r nrm F W1 b1 n k * W2 k j

/-- Its result: the propagated dense output, plus `b₂`. -/
def kerOut (n : ν) (j : Fin c) : EReal := nrm n * agg S r nrm (kerDense S r nrm F W1 b1 W2) n j + b2 j

theorem kerHidden_eq_refHidden : kerHidden S r nrm F W1 b1 = refHidden S r nrm F W1 b1 := by
  funext n k
  unfold kerHidden refHidden
  rw [eluKer_eq_eluRef]
  congr 2
  exact Finset.sum_congr rfl fun l _ => by rw [mul_comm (agg S r nrm F n l) (nrm n)]

variable {S r nrm F W1 b1 W2}

theorem agg_real {κ : Type} {X : ν → κ → EReal} (hn : ∀ n, IsReal (nrm n)) (hX : ∀ n k, IsReal (X n k)) (n : ν) (k : κ) :
    IsReal (agg S r nrm X n k) :=
  isReal_sum _ _ fun e _ => (hX (r e) k).mul (hn (r e))

theorem refHidden_real (hn : ∀ n, IsReal (nrm n)) (hF : ∀ n l, IsReal (F n l)) (hW1 : ∀ l k, IsReal (W1 l k))
    (hb1 : ∀ k, IsReal (b1 k)) (n : ν) (k : Fin b) : IsReal (refHidden S r nrm F W1 b1 n k) := by
  unfold refHidden
  obtain ⟨z, hz⟩ : IsReal (∑ l, (nrm n * agg S r nrm F n l) * W1 l k + b1 k) :=
    (isReal_sum _ _ fun l _ => ((hn n).mul (agg_real hn hF n l)).mul (hW1 l k)).add (hb1 k)
  rw [hz]; exact eluRef_real z

/-- **Propagation commutes with a dense map on the right**, for real-valued data: at node `n` and output feature `j`,
    `Σ_k (ν_n Σ_e h_{e,k} ν_e) w_{k,j} = ν_n Σ_e (Σ_k h_{e,k} w_{k,j}) ν_e`. -/
theorem propagate_dense (hn : ∀ n, IsReal (nrm n)) {H : ν → Fin b → EReal} (hH : ∀ n k, IsReal (H n k))
    (hW2 : ∀ k j, IsReal (W2 k j)) (n : ν) (j : Fin c) :
    ∑ k, (nrm n * agg S r nrm H n k) * W2 k j = nrm n * agg S r nrm (fun n j => ∑ k, H n k * W2 k j) n j := by
  choose ν' hν using hn
  choose h hh using hH
  choose w hw using hW2
  unfold agg
  simp only [hν, hh, hw, ← EReal.coe_mul, ← coe_sum]
  rw [EReal.coe_eq_coe_iff]
  simp only [Finset.mul_sum, Finset.sum_mul]
  rw [Finset.sum_comm]
  exact Finset.sum_congr rfl fun e _ => Finset.sum_congr rfl fun k _ => by ring

/-- **The two programs agree** on real-valued features, weights, hidden bias and normalisation factors (the output bias may
    be any extended real: it is added last on both sides). -/
theorem kerOut_eq_refOut (hn : ∀ n, IsReal (nrm n)) (hF : ∀ n l, IsReal (F n l)) (hW1 : ∀ l k, IsReal (W1 l k))
    (hb1 : ∀ k, IsReal (b1 k)) (hW2 : ∀ k j, IsReal (W2 k j)) :
    kerOut S r nrm F W1 b1 W2 b2 = refOut S r nrm F W1 b1 W2 b2 := by
  funext n j
  unfold kerOut refOut kerDense
  rw [kerHidden_eq_refHidden, propagate_dense hn (refHidden_real hn hF hW1 hb1) hW2]

end Programs

end Cert.Sgc

end
-- ==== Proof.RegionValue.lean ====
/-
  The region's output array, entry by entry.

  The region computes, for each block of 5000 rows, one dense two-layer block: the rows of the aggregated features scaled by
  the rows' factors, times the first weight matrix, plus the bias row, through ELU written out, times the second weight
  matrix. At entry (p, j) of a block this is the sum over hidden features k of ELU(Σ_l (A[p,l] · s[p]) · W₁[l,k] + b₁[k]) · W₂[k,j]
  — the plain matrix product into a zero accumulator is the sum over the contracted position, the column of factors and
  the bias row broadcast read their one column and one row, a cast to the same shape and the change of float format are
  the identity on the extended reals. Block t holds rows 5000 t … 5000 t + 4999 of the row-blocked arrays and the whole
  of the three small ones, and the 20 blocks tile the output, so the output array after the run is that function of the
  five arrays as the region finds them, at every entry.
-/
import proofs.«136916_j18047452578202_2_alg».proof.Proof.Gen.KernelIdeal.Frame
import proofs.«136916_j18047452578202_2_alg».proof.Proof.LibPlainMatmul
import proofs.«136916_j18047452578202_2_alg».proof.Proof.LibColumnLayout
import proofs.«136916_j18047452578202_2_alg».proof.Proof.Spec
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at one entry of a block -/

/-- The two products' dimension numbers are the plain row-by-column ones. -/
theorem dot1_eq : dot_S5000x128_S128x128_S5000x128_1_0_0_1_n_n = DotDims.plain 5000 128 128 := rfl
theorem dot2_eq : dot_S5000x128_S128x64_S5000x64_1_0_0_1_n_n = DotDims.plain 5000 128 64 := rfl

/-- The hidden layer before its activation, at row p and hidden feature k of a block: the row of the first operand
    scaled by the row's factor, times column k of the first weight matrix, plus entry k of the bias row. -/
theorem pre_apply (x0 : FVec Ideal S5000x128 .f32) (x1 : FVec Ideal S5000x1 .f32) (x2 : FVec Ideal S128x128 .f32)
    (x3 : FVec Ideal S1x128 .f32) (h0 : S5000x128.ShapeCasts S5000x128) (h1 : S5000x1.ShapeCasts S5000x1)
    (h1b : S5000x1.Broadcasts S5000x128) (h3 : S1x128.ShapeCasts S1x128) (h3b : S1x128.Broadcasts S5000x128)
    (ht : FTy.bf16.bits < FTy.f32.bits) (p : Fin 5000) (k : Fin 128) :
    addf (matmul dot_S5000x128_S128x128_S5000x128_1_0_0_1_n_n none
            (truncf .bf16 (mulf (shapeCast S5000x128 x0 h0) (broadcastTo S5000x128 (shapeCast S5000x1 x1 h1) h1b)) ht)
            (truncf .bf16 x2 ht) (constant (F := Ideal) S5000x128 .f32 0x00000000#32))
        (broadcastTo S5000x128 (shapeCast S1x128 x3 h3) h3b) (ix2 p k)
      = ∑ l : Fin 128, (x0 (ix2 p l) * x1 (ix2 p (0 : Fin 1))) * x2 (ix2 l k) + x3 (ix2 (0 : Fin 1) k) := by
  rw [addf_apply, shapeCast_self, shapeCast_self, shapeCast_self, broadcastTo_1b_ab_apply, dot1_eq]
  congr 1
  refine (PlainMatmul.matmul_zero_apply none _ _ p k).trans ?_
  refine Finset.sum_congr rfl fun l _ => ?_
  show (x0 (ix2 p l) * broadcastTo S5000x128 x1 h1b (ix2 p l)) * x2 (ix2 l k) = _
  rw [ColumnLayout.broadcastTo_a1_ab_apply]

/-- Entry (p, j) of the block the body stores: the dense block of row p of its operands. -/
theorem pay_apply (x0 : Vec Ideal S5000x128 .f32) (x1 : Vec Ideal S5000x1 .f32) (x2 : Vec Ideal S128x128 .f32)
    (x3 : Vec Ideal S1x128 .f32) (x4 : Vec Ideal S128x64 .f32) (p : Fin 5000) (j : Fin 64) :
    k0_pay1 x0 x1 x2 x3 x4 (ix2 p j)
      = Cert.Sgc.denseAt (fun l : Fin 128 => x0 (ix2 p l)) (x1 (ix2 p (0 : Fin 1)))
          (fun (l : Fin 128) (k : Fin 128) => x2 (ix2 l k)) (fun k : Fin 128 => x3 (ix2 (0 : Fin 1) k))
          (fun (k : Fin 128) (j : Fin 64) => x4 (ix2 k j)) j := by
  unfold k0_pay1
  rw [dot2_eq]
  refine (PlainMatmul.matmul_zero_apply none _ _ p j).trans ?_
  unfold Cert.Sgc.denseAt
  refine Finset.sum_congr rfl fun k _ => ?_
  show _ = Cert.Sgc.eluKer (∑ l : Fin 128, (x0 (ix2 p l) * x1 (ix2 p (0 : Fin 1))) * x2 (ix2 l k) + x3 (ix2 (0 : Fin 1) k))
      * x4 (ix2 k j)
  rw [← pre_apply x0 x1 x2 x3 shapeCasts_S5000x128_S5000x128 shapeCasts_S5000x1_S5000x1 broadcasts_S5000x1_S5000x128
    shapeCasts_S1x128_S1x128 broadcasts_S1x128_S5000x128 bitsLt_bf16_f32 p k]
  rfl

/-! ## From the blocks to the array -/

variable (m : (ℓ : Loc nD τ sig) → Buf (Elt Ideal) ℓ)

theorem hz : (![0, 0] : Fin 2 → Nat) = fun _ => 0 := funext fun a => by fin_cases a <;> rfl

/-- The whole output array as one function of the five arrays the region reads: row n is the dense block of row n. -/
def regionOut (A : S100000x128.Idx → EReal) (s : S100000x1.Idx → EReal) (W1 : S128x128.Idx → EReal)
    (b1 : S1x128.Idx → EReal) (W2 : S128x64.Idx → EReal) : S100000x64.Idx → EReal := fun i =>
  Cert.Sgc.denseAt (fun l : Fin 128 => A (ix2 (show Fin 100000 from i 0) l)) (s (ix2 (show Fin 100000 from i 0) (0 : Fin 1)))
    (fun (l : Fin 128) (k : Fin 128) => W1 (ix2 l k)) (fun k : Fin 128 => b1 (ix2 (0 : Fin 1) k))
    (fun (k : Fin 128) (j : Fin 64) => W2 (ix2 k j)) (show Fin 64 from i 1)

/-- A block of the output is the same function of the blocks of the operands, when the operands' blocks are the
    arrays' rows from r on (for the two row-blocked operands) and the whole arrays (for the other three). -/
theorem block_eq (x0 : Vec Ideal S5000x128 .f32) (x1 : Vec Ideal S5000x1 .f32) (x2 : Vec Ideal S128x128 .f32)
    (x3 : Vec Ideal S1x128 .f32) (x4 : Vec Ideal S128x64 .f32)
    (A : S100000x128.Idx → EReal) (s : S100000x1.Idx → EReal) (W1 : S128x128.Idx → EReal)
    (b1 : S1x128.Idx → EReal) (W2 : S128x64.Idx → EReal) (r : Fin 5000 → Fin 100000)
    (h0 : ∀ (p : Fin 5000) (l : Fin 128), x0 (ix2 p l) = A (ix2 (r p) l))
    (h1 : ∀ p : Fin 5000, x1 (ix2 p (0 : Fin 1)) = s (ix2 (r p) (0 : Fin 1)))
    (h2 : ∀ (l : Fin 128) (k : Fin 128), x2 (ix2 l k) = W1 (ix2 l k))
    (h3 : ∀ k : Fin 128, x3 (ix2 (0 : Fin 1) k) = b1 (ix2 (0 : Fin 1) k))
    (h4 : ∀ (k : Fin 128) (j : Fin 64), x4 (ix2 k j) = W2 (ix2 k j)) (p : Fin 5000) (q : Fin 64) :
    k0_pay1 x0 x1 x2 x3 x4 (ix2 p q) = regionOut A s W1 b1 W2 (ix2 (r p) q) := by
  rw [pay_apply]
  show Cert.Sgc.denseAt _ _ _ _ _ q = Cert.Sgc.denseAt (fun l : Fin 128 => A (ix2 (r p) l)) (s (ix2 (r p) (0 : Fin 1)))
    (fun (l : Fin 128) (k : Fin 128) => W1 (ix2 l k)) (fun k : Fin 128 => b1 (ix2 (0 : Fin 1) k))
    (fun (k : Fin 128) (j : Fin 64) => W2 (ix2 k j)) q
  simp only [h0, h1, h2, h3, h4]

/-- The printed index maps over the grid: the two row-blocked operands and the output move one block of rows per point,
    the other three operands stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row that row p of block t is. -/
def rowOf (t : Fin cfg0.N) (p : Fin 5000) : Fin 100000 :=
  ⟨5000 * t.val + p.val, by have h : t.val < 20 := Nat.lt_of_lt_of_eq t.isLt N_0; have := p.isLt; omega⟩

/-! Reading an array through a window's block at point t: the two row-blocked operands and the output read rows
    5000 t + p of their arrays, the other three operands read their whole arrays. Stated over any array contents. -/

theorem read0_apply (X : S100000x128.Idx → EReal) (t : Fin cfg0.N) (p : Fin 5000) (l : Fin 128) :
    ((cfg0.win 0).blk t).view.read (Elt Ideal) X (ix2 p l) = X (ix2 (rowOf t p) l) := by
  obtain ⟨e0, e1, -⟩ := idx_facts t
  show X (((cfg0.win 0).blk t).view.emb (ix2 p l)) = _
  refine congrArg X (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * l.val = l.val; omega

theorem read1_apply (X : S100000x1.Idx → EReal) (t : Fin cfg0.N) (p : Fin 5000) :
    ((cfg0.win 1).blk t).view.read (Elt Ideal) X (ix2 p (0 : Fin 1)) = X (ix2 (rowOf t p) (0 : Fin 1)) := by
  obtain ⟨-, -, e0, e1, -⟩ := idx_facts t
  show X (((cfg0.win 1).blk t).view.emb (ix2 p (0 : Fin 1))) = _
  refine congrArg X (funext fun a => Fin.ext ?_)
  match a with
  | ⟨0, _⟩ => show win0_1.index t (0 : Fin 2) * 5000 + 1 * p.val = 5000 * t.val + p.val; omega
  | ⟨1, _⟩ => show win0_1.index t (1 : Fin 2) * 1 + 1 * (0 : Fin 1).val = (0 : Fin 1).val; omega

theorem read2_apply (X : S128x128.Idx → EReal) (t : Fin cfg0.N) (l : Fin 128) (k : Fin 128) :
    ((cfg0.win 2).blk t).view.read (Elt Ideal) X (ix2 l k) = X (ix2 l k) := by
  obtain ⟨-, -, -, -, e0, e1, -⟩ := idx_facts t
  show X (((cfg0.win 2).blk t).view.emb (ix2 l k)) = _
  refine congrArg X (funext fun a => Fin.ext ?_)
  match a with
  | ⟨0, _⟩ => show win0_2.index t (0 : Fin 2) * 128 + 1 * l.val = l.val; omega
  | ⟨1, _⟩ => show win0_2.index t (1 : Fin 2) * 128 + 1 * k.val = k.val; omega

theorem read3_apply (X : S1x128.Idx → EReal) (t : Fin cfg0.N) (k : Fin 128) :
    ((cfg0.win 3).blk t).view.read (Elt Ideal) X (ix2 (0 : Fin 1) k) = X (ix2 (0 : Fin 1) k) := by
  obtain ⟨-, -, -, -, -, -, e0, e1, -⟩ := idx_facts t
  show X (((cfg0.win 3).blk t).view.emb (ix2 (0 : Fin 1) k)) = _
  refine congrArg X (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * k.val = k.val; omega

theorem read4_apply (X : S128x64.Idx → EReal) (t : Fin cfg0.N) (k : Fin 128) (j : Fin 64) :
    ((cfg0.win 4).blk t).view.read (Elt Ideal) X (ix2 k j) = X (ix2 k j) := by
  obtain ⟨-, -, -, -, -, -, -, -, e0, e1, -⟩ := idx_facts t
  show X (((cfg0.win 4).blk t).view.emb (ix2 k j)) = _
  refine congrArg X (funext fun a => Fin.ext ?_)
  match a with
  | ⟨0, _⟩ => show win0_4.index t (0 : Fin 2) * 128 + 1 * k.val = k.val; omega
  | ⟨1, _⟩ => show win0_4.index t (1 : Fin 2) * 64 + 1 * j.val = j.val; omega

theorem read5_apply (X : S100000x64.Idx → EReal) (t : Fin cfg0.N) (p : Fin 5000) (q : Fin 64) :
    ((cfg0.win 5).blk t).view.read (Elt Ideal) X (ix2 p q) = X (ix2 (rowOf t p) q) := by
  obtain ⟨-, -, -, -, -, -, -, -, -, -, e0, e1⟩ := idx_facts t
  show X (((cfg0.win 5).blk t).view.emb (ix2 p q)) = _
  refine congrArg X (funext fun a => Fin.ext ?_)
  match a with
  | ⟨0, _⟩ => show win0_5.index t (0 : Fin 2) * 5000 + 1 * p.val = 5000 * t.val + p.val; omega
  | ⟨1, _⟩ => show win0_5.index t (1 : Fin 2) * 64 + 1 * q.val = q.val; omega

/-- What point t writes back is block t of the output function of the five arrays as the region finds them. -/
theorem flushed_eq (c : Dev nD) (t : Fin cfg0.N) :
    (dats m 0 c).flushed 5 t = ((cfg0.win 5).blk t).view.read (Elt Ideal)
      (regionOut (V m c main_v19) (V m c main_v7) (V m c main_arg1) (V m c main_v20) (V m c main_arg3)) := by
  show (cfg0.win 5).cut (grid0.coords t) ((dats m 0 c).after 5 t) = _
  rw [after0_5]
  unfold out0_5
  rw [View.canon_unit_zero hz]
  simp only [View.ld_unit_zero (S := S5000x128) hz, View.ld_unit_zero (S := S5000x1) hz,
    View.ld_unit_zero (S := S128x128) hz, View.ld_unit_zero (S := S1x128) hz, View.ld_unit_zero (S := S128x64) hz]
  funext y
  obtain ⟨p, q, rfl⟩ : ∃ (p : Fin 5000) (q : Fin 64), y = ix2 p q := ⟨y 0, y 1, eq_ix2 (n0 := 5000) (n1 := 64) y⟩
  refine Eq.trans ?_ (read5_apply _ t p q).symm
  show k0_pay1 _ _ _ _ _ (ix2 p q) = _
  exact block_eq (iblk m c 0 t) (iblk m c 1 t) (iblk m c 2 t) (iblk m c 3 t) (iblk m c 4 t)
    (V m c main_v19) (V m c main_v7) (V m c main_arg1) (V m c main_v20) (V m c main_arg3) (rowOf t)
    (fun p l => read0_apply (V m c main_v19) t p l) (fun p => read1_apply (V m c main_v7) t p)
    (fun l k => read2_apply (V m c main_arg1) t l k) (fun k => read3_apply (V m c main_v20) t k)
    (fun k j => read4_apply (V m c main_arg3) t k j) p q

/-- An index of the output array is in point t's block iff each coordinate is in the block's range on its axis. -/
theorem mem_blk5 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v21).slice (win0_5.rect t)).set ↔ _
  rw [View.set_slice_whole, Rect.mem_set_unit]
  exact Iff.rfl

/-- Every entry of the output array is written: row n lies in the block of point n / 5000. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, -, -, -, -, e0, e1⟩ := idx_facts ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_blk5]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    omega

/-- The output array after the run is the output function of the five arrays as the region finds them. -/
theorem region_array (c : Dev nD) :
    (dats m 0 c).arrAt 5 cfg0.N
      = regionOut (V m c main_v19) (V m c main_v7) (V m c main_arg1) (V m c main_v20) (V m c main_arg3) :=
  (dats m 0 c).arrAt_eq_of_cover 5
    (regionOut (V m c main_v19) (V m c main_v7) (V m c main_arg1) (V m c main_v20) (V m c main_arg3))
    (fun t _ => flushed_eq m c t) cover5

/-- Entry (n, j) of the region's output array after the run: the dense block of row n. -/
theorem region_entry (m : (ℓ : Loc nD τ sig) → Buf (Elt Ideal) ℓ) (c : Dev nD) (n : Fin 100000) (j : Fin 64) :
    (Gen.dats (F := Ideal) m 0 c).arrAt 5 cfg0.N (ValueIdx.ix2 n j)
      = Cert.Sgc.denseAt (fun l : Fin 128 => Gen.V m c main_v19 (ValueIdx.ix2 n l))
          (Gen.V m c main_v7 (ValueIdx.ix2 n (0 : Fin 1)))
          (fun (l : Fin 128) (k : Fin 128) => Gen.V m c main_arg1 (ValueIdx.ix2 l k))
          (fun k : Fin 128 => Gen.V m c main_v20 (ValueIdx.ix2 (0 : Fin 1) k))
          (fun (k : Fin 128) (j : Fin 64) => Gen.V m c main_arg3 (ValueIdx.ix2 k j)) j := by
  rw [region_array m c]
  rfl

end Cert.KernelIdeal.RegionValue

end
-- ==== Proof.LibRowScatter.lean ====
/-
  Gathering rows of an array, and scatter-adding rows into an array, at a column of row numbers, read at an entry.

  `x[idx]` for an array `x` of `N` rows (of `C` numbers each, or of one number) and a column `idx` of `R` row numbers is
  a gather whose row `e` is row `clampRow idx e` of `x`: the row number read as a signed integer and clamped into
  `[0, N - 1]`.  `x.at[idx].add(u)` adds row `e` of `u` to row `idx e` of `x` when that signed number is a row of `x`,
  and drops it when it is not: over the extended reals entry `(n, c)` of the result is entry `(n, c)` of `x` plus the
  sum of `u e c` over the rows `e` whose number is `n`.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

variable {α : Type}

/-! ## Closed facts about the axis lists of rank 1 and rank 2 -/

theorem kept2_0 : (List.finRange 2).filter (fun a : Fin 2 => a ∉ ([0] ++ [] : List (Fin 2))) = [1] := by decide
theorem kept2_0' : (List.finRange 2).filter (fun a : Fin 2 => a ∉ ([0] : List (Fin 2))) = [1] := by decide
theorem kept1_0 : (List.finRange 1).filter (fun a : Fin 1 => a ∉ ([0] ++ [] : List (Fin 1))) = [] := by decide
theorem kept1_0' : (List.finRange 1).filter (fun a : Fin 1 => a ∉ ([0] : List (Fin 1))) = [] := by decide
theorem idxOf_1 : List.idxOf (1 : Fin 2) [1] = 0 := by decide
theorem one_not_mem : (1 : Fin 2) ∉ ([0] : List (Fin 2)) := by decide
theorem zero_not_mem_one : (0 : Fin 2) ∉ ([1] : List (Fin 2)) := by decide

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The column of row numbers -/

/-- Entry `e` of a column of `R` row numbers, read as a signed integer. -/
def rowNo {R w : Nat} (idx : IVec ⟨2, ![R, 1]⟩ w) (e : Fin R) : Int := (idx (ix2 e (0 : Fin 1))).toInt

/-- The row a gather reads for entry `e`: its signed number clamped into `[0, N - 1]`. -/
def clampRow {R w : Nat} (N : Nat) (hN : 0 < N) (idx : IVec ⟨2, ![R, 1]⟩ w) (e : Fin R) : Fin N :=
  ⟨min (rowNo idx e).toNat (N - 1), by omega⟩

/-- A signed number that is a row is its own clamp. -/
theorem clampRow_of_rowNo {R w : Nat} (N : Nat) (hN : 0 < N) (idx : IVec ⟨2, ![R, 1]⟩ w) (e : Fin R) (n : Fin N)
    (h : rowNo idx e = (n.val : Int)) : clampRow N hN idx e = n := by
  apply Fin.ext
  show min (rowNo idx e).toNat (N - 1) = n.val
  have := n.isLt
  rw [h]; omega

/-! ## Rows of a rank-2 array gathered -/

/-- The dimension numbers of `x[idx]` for `x : [N, C]`, `idx : [R, 1]`: result `[R, C]`. -/
abbrev gatherRows (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section GatherRows
variable {N R C w : Nat} (wf : GatherDims.WF ⟨2, ![N, C]⟩ ⟨2, ![R, 1]⟩ ⟨2, ![R, C]⟩ [1] [0] [] [0] [] 1 ![1, C])
  (idx : IVec ⟨2, ![R, 1]⟩ w) (e : Fin R) (k : Fin C)

theorem gatherRows_sKept : (gatherRows N R C wf).sKept = [1] := kept2_0

theorem gatherRows_axis0 (hN : 0 < N) :
    (gatherRows N R C wf).start (ix2 e k) idx (0 : Fin 2) + (gatherRows N R C wf).batchCoord (ix2 e k) (0 : Fin 2)
      + (gatherRows N R C wf).offCoord (ix2 e k) (0 : Fin 2) = (clampRow N hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (gatherRows N R C wf).startIndexMap from List.mem_singleton.mpr rfl)]
  have hsi : (gatherRows N R C wf).siIdx (ix2 e k) ⟨List.idxOf (0 : Fin 2) (gatherRows N R C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gatherRows_axis1 :
    (gatherRows N R C wf).start (ix2 e k) idx (1 : Fin 2) + (gatherRows N R C wf).batchCoord (ix2 e k) (1 : Fin 2)
      + (gatherRows N R C wf).offCoord (ix2 e k) (1 : Fin 2) = k.val := by
  rw [GatherDims.batchCoord_eq_zero _ _ _ List.not_mem_nil]
  have hs : (gatherRows N R C wf).start (ix2 e k) idx (1 : Fin 2) = 0 := by
    unfold GatherDims.start
    rw [dif_neg one_not_mem]
  have ho : (gatherRows N R C wf).offCoord (ix2 e k) (1 : Fin 2) = k.val := by
    unfold GatherDims.offCoord
    rw [dif_pos (by rw [gatherRows_sKept]; exact List.mem_singleton.mpr rfl)]
    have h : List.idxOf (1 : Fin 2) (gatherRows N R C wf).sKept = 0 := by rw [gatherRows_sKept]; exact idxOf_1
    simp only [h]
    rfl
  rw [hs, ho]; omega

/-- Row `e` of the gather is row `clampRow idx e` of the operand. -/
theorem gatherRows_apply (hN : 0 < N) (x : (⟨2, ![N, C]⟩ : Shape).Idx → α) :
    Host.gather (gatherRows N R C wf) x idx (ix2 e k) = x (ix2 (clampRow N hN idx e) k) := by
  unfold Host.gather
  congr 1
  funext a
  refine Fin.ext ?_
  revert a
  refine Fin.forall_fin_two.mpr ⟨?_, ?_⟩
  · exact gatherRows_axis0 wf idx e k hN
  · exact gatherRows_axis1 wf idx e k

end GatherRows

/-! ## Entries of a rank-1 array gathered -/

/-- The dimension numbers of `x[idx]` for `x : [N]`, `idx : [R, 1]`: result `[R]`. -/
abbrev gatherCol (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `e` of the gather is entry `clampRow idx e` of the operand. -/
theorem gatherCol_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (gatherCol N R wf) x idx (ix1 e) = x (ix1 (clampRow N hN idx e)) := by
  unfold Host.gather
  congr 1
  funext a
  obtain rfl : a = 0 := Subsingleton.elim _ _
  refine Fin.ext ?_
  show (gatherCol N R wf).start (ix1 e) idx 0 + (gatherCol N R wf).batchCoord (ix1 e) 0
    + (gatherCol N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherCol N R wf).startIndexMap from List.mem_singleton.mpr rfl)]
  have hsi : (gatherCol N R wf).siIdx (ix1 e) ⟨List.idxOf (0 : Fin 1) (gatherCol N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Rows scatter-added into a rank-2 array -/

/-- The dimension numbers of `x.at[idx].add(u)` for `x : [N, C]`, `idx : [R, 1]`, `u : [R, C]`. -/
abbrev scatterRows (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section ScatterRows
variable {N R C w : Nat} (wf : ScatterDims.WF ⟨2, ![N, C]⟩ ⟨2, ![R, 1]⟩ ⟨2, ![R, C]⟩ [1] [0] [0] 1)
  (idx : IVec ⟨2, ![R, 1]⟩ w) (e : Fin R) (k : Fin C)

theorem scatterRows_sKept : (scatterRows N R C wf).sKept = [1] := kept2_0'

theorem scatterRows_axis0 :
    (scatterRows N R C wf).start (ix2 e k) idx (0 : Fin 2) + ((scatterRows N R C wf).window (ix2 e k) (0 : Fin 2) : Int)
      = rowNo idx e := by
  have hw : (scatterRows N R C wf).window (ix2 e k) (0 : Fin 2) = 0 := by
    unfold ScatterDims.window
    rw [dif_neg (by rw [scatterRows_sKept]; exact zero_not_mem_one)]
  have hs : (scatterRows N R C wf).start (ix2 e k) idx (0 : Fin 2) = rowNo idx e := by
    unfold ScatterDims.start
    rw [dif_pos (show (0 : Fin 2) ∈ (scatterRows N R C wf).scatterDimsToOperandDims from List.mem_singleton.mpr rfl)]
    have hsi : (scatterRows N R C wf).siIdx (ix2 e k)
        ⟨List.idxOf (0 : Fin 2) (scatterRows N R C wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

theorem scatterRows_axis1 :
    (scatterRows N R C wf).start (ix2 e k) idx (1 : Fin 2) + ((scatterRows N R C wf).window (ix2 e k) (1 : Fin 2) : Int)
      = (k.val : Int) := by
  have hs : (scatterRows N R C wf).start (ix2 e k) idx (1 : Fin 2) = 0 := by
    unfold ScatterDims.start
    rw [dif_neg one_not_mem]
  have hw : (scatterRows N R C wf).window (ix2 e k) (1 : Fin 2) = k.val := by
    unfold ScatterDims.window
    rw [dif_pos (by rw [scatterRows_sKept]; exact List.mem_singleton.mpr rfl)]
    have h : List.idxOf (1 : Fin 2) (scatterRows N R C wf).sKept = 0 := by rw [scatterRows_sKept]; exact idxOf_1
    simp only [h]
    rfl
  rw [hs, hw]; simp

/-- Update `(e, k)` lands on entry `(n, c)` exactly when row `e`'s signed number is `n` and `k = c`. -/
theorem scatterRows_resultIdx (n : Fin N) (c : Fin C) :
    (scatterRows N R C wf).resultIdx? (ix2 e k) idx = some (ix2 n c) ↔ rowNo idx e = (n.val : Int) ∧ k = c := by
  have h0 := scatterRows_axis0 wf idx e k
  have h1 := scatterRows_axis1 wf idx e k
  unfold ScatterDims.resultIdx?
  split
  · rename_i h
    rw [Option.some.injEq]
    constructor
    · intro hi
      have e0 := congrArg Fin.val (congrFun hi (0 : Fin 2))
      have e1 := congrArg Fin.val (congrFun hi (1 : Fin 2))
      have p0 := (h (0 : Fin 2)).1
      refine ⟨?_, Fin.ext ?_⟩
      · have e0' : ((scatterRows N R C wf).start (ix2 e k) idx (0 : Fin 2)
            + ((scatterRows N R C wf).window (ix2 e k) (0 : Fin 2) : Int)).toNat = n.val := e0
        rw [h0] at e0' p0
        omega
      · have e1' : ((scatterRows N R C wf).start (ix2 e k) idx (1 : Fin 2)
            + ((scatterRows N R C wf).window (ix2 e k) (1 : Fin 2) : Int)).toNat = c.val := e1
        rw [h1] at e1'
        omega
    · rintro ⟨hr, rfl⟩
      funext a
      refine Fin.ext ?_
      revert a
      refine Fin.forall_fin_two.mpr ⟨?_, ?_⟩
      · show ((scatterRows N R C wf).start (ix2 e k) idx (0 : Fin 2)
            + ((scatterRows N R C wf).window (ix2 e k) (0 : Fin 2) : Int)).toNat = n.val
        rw [h0, hr]; simp
      · show ((scatterRows N R C wf).start (ix2 e k) idx (1 : Fin 2)
            + ((scatterRows N R C wf).window (ix2 e k) (1 : Fin 2) : Int)).toNat = k.val
        rw [h1]; simp
  · rename_i h
    constructor
    · intro hi; exact absurd hi (by simp)
    · rintro ⟨hr, rfl⟩
      exfalso
      apply h
      refine Fin.forall_fin_two.mpr ⟨?_, ?_⟩
      · show 0 ≤ (scatterRows N R C wf).start (ix2 e k) idx (0 : Fin 2)
            + ((scatterRows N R C wf).window (ix2 e k) (0 : Fin 2) : Int)
          ∧ (scatterRows N R C wf).start (ix2 e k) idx (0 : Fin 2)
            + ((scatterRows N R C wf).window (ix2 e k) (0 : Fin 2) : Int) < (N : Int)
        rw [h0, hr]
        have := n.isLt
        constructor <;> omega
      · show 0 ≤ (scatterRows N R C wf).start (ix2 e k) idx (1 : Fin 2)
            + ((scatterRows N R C wf).window (ix2 e k) (1 : Fin 2) : Int)
          ∧ (scatterRows N R C wf).start (ix2 e k) idx (1 : Fin 2)
            + ((scatterRows N R C wf).window (ix2 e k) (1 : Fin 2) : Int) < (C : Int)
        rw [h1]
        have := k.isLt
        constructor <;> omega

end ScatterRows

/-- Over the extended reals, entry `(n, c)` after the scatter-add is the entry before plus the sum of `u e c` over
    the rows `e` whose signed number is `n`. -/
theorem scatterAddRows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (u : (⟨2, ![R, C]⟩ : Shape).Idx → EReal)
    (n : Fin N) (c : Fin C) :
    Ideal.hostScatterAdd (scatterRows N R C wf) x idx u (ix2 n c)
      = x (ix2 n c) + ∑ e ∈ Finset.univ.filter (fun e : Fin R => rowNo idx e = (n.val : Int)), u (ix2 e c) := by
  unfold Ideal.hostScatterAdd
  congr 1
  rw [Finset.sum_filter, sum_idx2, Finset.sum_filter]
  refine Finset.sum_congr rfl fun e _ => ?_
  simp only [scatterRows_resultIdx]
  by_cases h : rowNo idx e = (n.val : Int)
  · simp [h]
  · simp [h]

/-- The same for the host operation at the ideal values, whose meaning that sum is. -/
theorem hostScatterAddRows_apply {φ : FTy} {N R C w : Nat}
    (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (u : FVec Ideal ⟨2, ![R, C]⟩ φ) (n : Fin N) (c : Fin C) :
    Host.scatterAdd (scatterRows N R C wf) x idx u (ix2 n c)
      = x (ix2 n c) + ∑ e ∈ Finset.univ.filter (fun e : Fin R => rowNo idx e = (n.val : Int)), u (ix2 e c) :=
  scatterAddRows_apply wf x idx u n c

/-! ## Entries scatter-added into a rank-1 array -/

/-- The dimension numbers of `x.at[idx].add(u)` for `x : [N]`, `idx : [R, 1]`, `u : [R]`. -/
abbrev scatterCol (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section ScatterCol
variable {N R w : Nat} (wf : ScatterDims.WF ⟨1, ![N]⟩ ⟨2, ![R, 1]⟩ ⟨1, ![R]⟩ [] [0] [0] 1)
  (idx : IVec ⟨2, ![R, 1]⟩ w) (e : Fin R)

theorem scatterCol_axis0 :
    (scatterCol N R wf).start (ix1 e) idx (0 : Fin 1) + ((scatterCol N R wf).window (ix1 e) (0 : Fin 1) : Int)
      = rowNo idx e := by
  have hw : (scatterCol N R wf).window (ix1 e) (0 : Fin 1) = 0 := by
    unfold ScatterDims.window
    rw [dif_neg (by rw [show (scatterCol N R wf).sKept = [] from kept1_0']; exact List.not_mem_nil)]
  have hs : (scatterCol N R wf).start (ix1 e) idx (0 : Fin 1) = rowNo idx e := by
    unfold ScatterDims.start
    rw [dif_pos (show (0 : Fin 1) ∈ (scatterCol N R wf).scatterDimsToOperandDims from List.mem_singleton.mpr rfl)]
    have hsi : (scatterCol N R wf).siIdx (ix1 e)
        ⟨List.idxOf (0 : Fin 1) (scatterCol N R wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  rw [hs, hw]; simp

/-- Update `e` lands on entry `n` exactly when its signed number is `n`. -/
theorem scatterCol_resultIdx (n : Fin N) :
    (scatterCol N R wf).resultIdx? (ix1 e) idx = some (ix1 n) ↔ rowNo idx e = (n.val : Int) := by
  have h0 := scatterCol_axis0 wf idx e
  unfold ScatterDims.resultIdx?
  split
  · rename_i h
    rw [Option.some.injEq]
    constructor
    · intro hi
      have e0 : ((scatterCol N R wf).start (ix1 e) idx (0 : Fin 1)
          + ((scatterCol N R wf).window (ix1 e) (0 : Fin 1) : Int)).toNat = n.val :=
        congrArg Fin.val (congrFun hi (0 : Fin 1))
      have p0 := (h (0 : Fin 1)).1
      rw [h0] at e0 p0
      omega
    · intro hr
      funext a
      obtain rfl : a = 0 := Subsingleton.elim _ _
      refine Fin.ext ?_
      show ((scatterCol N R wf).start (ix1 e) idx (0 : Fin 1)
          + ((scatterCol N R wf).window (ix1 e) (0 : Fin 1) : Int)).toNat = n.val
      rw [h0, hr]; simp
  · rename_i h
    constructor
    · intro hi; exact absurd hi (by simp)
    · intro hr
      exfalso
      apply h
      intro a
      obtain rfl : a = 0 := Subsingleton.elim _ _
      show 0 ≤ (scatterCol N R wf).start (ix1 e) idx (0 : Fin 1)
          + ((scatterCol N R wf).window (ix1 e) (0 : Fin 1) : Int)
        ∧ (scatterCol N R wf).start (ix1 e) idx (0 : Fin 1)
          + ((scatterCol N R wf).window (ix1 e) (0 : Fin 1) : Int) < (N : Int)
      rw [h0, hr]
      have := n.isLt
      constructor <;> omega

end ScatterCol

/-- Over the extended reals, entry `n` after the scatter-add is the entry before plus the sum of `u e` over the
    entries `e` whose signed number is `n`. -/
theorem scatterAddCol_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (u : (⟨1, ![R]⟩ : Shape).Idx → EReal) (n : Fin N) :
    Ideal.hostScatterAdd (scatterCol N R wf) x idx u (ix1 n)
      = x (ix1 n) + ∑ e ∈ Finset.univ.filter (fun e : Fin R => rowNo idx e = (n.val : Int)), u (ix1 e) := by
  unfold Ideal.hostScatterAdd
  congr 1
  rw [Finset.sum_filter, sum_idx1, Finset.sum_filter]
  refine Finset.sum_congr rfl fun e _ => ?_
  simp only [scatterCol_resultIdx]

end Idealize.ShloMosaic.RowScatter

end
-- ==== Proof.HostStages.lean ====
/-
  The host-side stages both programs share, read at an index: a vector kept as a column and a column or a row spread over
  a matrix; the normalisation vector (in-degrees by a scatter-add of ones, clamped below at one, to the power −1/2); the
  raw aggregation of one propagation (rows gathered at the edges' sources, scatter-added at the edges' destinations); and
  a matrix scaled row by row by the normalisation column.
-/
import Idealize.ShloMosaic.Lib.ValueIdx
import Idealize.ShloMosaic.Lib.Pipeline.Value
import Idealize.ShloMosaic.Lib.IdealHost
import Idealize.ShloMosaic.PureOps.Ideal.Laws
import proofs.«136916_j18047452578202_2_alg».proof.Proof.LibRowScatter
import proofs.«136916_j18047452578202_2_alg».proof.Proof.Spec

noncomputable section

open scoped BigOperators

namespace Cert.Sgc

open Idealize.ShloMosaic Idealize.ShloMosaic.ValueIdx Idealize.ShloMosaic.RowScatter

/-! ## Broadcasts of small shapes read at an entry -/

/-- A vector `[n]` kept as the column `[n, 1]` reads, at `(p, u)`, the vector at `p`. -/
theorem bcast_vec_col {α : Type} {n : ℕ} (h : (⟨1, ![n]⟩ : Shape).BroadcastsInDim ⟨2, ![n, 1]⟩ ![0])
    (x : (⟨1, ![n]⟩ : Shape).Idx → α) (p : Fin n) (u : Fin 1) :
    broadcastInDim ⟨2, ![n, 1]⟩ ![0] h x (ix2 p u) = x (ix1 p) := by
  refine broadcastInDim_apply ![0] h x (ix2 p u) (ix1 p) fun ax => ?_
  match ax with
  | ⟨0, _⟩ =>
    show p.val = if n = 1 then 0 else p.val
    split
    · have := p.isLt; omega
    · rfl

/-- A column `[n, 1]` spread over `[n, c]` reads, at `(p, q)`, the column at row `p`. -/
theorem bcast_col_mat {α : Type} {n c : ℕ} (h : (⟨2, ![n, 1]⟩ : Shape).BroadcastsInDim ⟨2, ![n, c]⟩ ![0, 1])
    (x : (⟨2, ![n, 1]⟩ : Shape).Idx → α) (p : Fin n) (q : Fin c) :
    broadcastInDim ⟨2, ![n, c]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if n = 1 then 0 else p.val
    split
    · have := p.isLt; omega
    · rfl
  | ⟨1, _⟩ =>
    show (0 : ℕ) = if (1 : ℕ) = 1 then 0 else q.val
    simp

/-- A vector `[c]` kept as the row `[1, c]` reads, at `(u, q)`, the vector at `q`. -/
theorem bcast_vec_row {α : Type} {c : ℕ} (h : (⟨1, ![c]⟩ : Shape).BroadcastsInDim ⟨2, ![1, c]⟩ ![1])
    (x : (⟨1, ![c]⟩ : Shape).Idx → α) (u : Fin 1) (q : Fin c) :
    broadcastInDim ⟨2, ![1, c]⟩ ![1] h x (ix2 u q) = x (ix1 q) := by
  refine broadcastInDim_apply ![1] h x (ix2 u q) (ix1 q) fun ax => ?_
  match ax with
  | ⟨0, _⟩ =>
    show q.val = if c = 1 then 0 else q.val
    split
    · have := q.isLt; omega
    · rfl

/-- A row `[1, c]` spread over `[n, c]` reads, at `(p, q)`, the row at `q`. -/
theorem bcast_row_mat {α : Type} {n c : ℕ} (h : (⟨2, ![1, c]⟩ : Shape).BroadcastsInDim ⟨2, ![n, c]⟩ ![0, 1])
    (x : (⟨2, ![1, c]⟩ : Shape).Idx → α) (p : Fin n) (q : Fin c) :
    broadcastInDim ⟨2, ![n, c]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    simp
  | ⟨1, _⟩ =>
    show q.val = if c = 1 then 0 else q.val
    split
    · have := q.isLt; omega
    · rfl

/-! ## The edges arriving at a node -/

/-- The edges whose destination number, read as a signed integer, is node `n`. -/
def inEdges {N E : ℕ} (dcol : IVec ⟨2, ![E, 1]⟩ 32) (n : Fin N) : Finset (Fin E) :=
  Finset.univ.filter (fun e : Fin E => rowNo dcol e = (n.val : Int))

/-! ## The normalisation vector -/

section Norm

variable {N E : ℕ} (wfS : ScatterDims.WF ⟨1, ![N]⟩ ⟨2, ![E, 1]⟩ ⟨1, ![E]⟩ [] [0] [0] 1)
  (hbN : (⟨0, ![]⟩ : Shape).BroadcastsInDim ⟨1, ![N]⟩ ![]) (hbE : (⟨0, ![]⟩ : Shape).BroadcastsInDim ⟨1, ![E]⟩ ![])

/-- The in-degrees (ones scatter-added at the destinations into zeros), clamped below at one, to the power −1/2. -/
def nrmVec (dcol : IVec ⟨2, ![E, 1]⟩ 32) : FVec Ideal ⟨1, ![N]⟩ .f32 :=
  Host.powf
    (maximumf (broadcastInDim ⟨1, ![N]⟩ ![] hbN (id (constant (F := Ideal) ⟨0, ![]⟩ .f32 0x3F800000#32)))
      (Host.scatterAdd (scatterCol N E wfS)
        (broadcastInDim ⟨1, ![N]⟩ ![] hbN (constant (F := Ideal) ⟨0, ![]⟩ .f32 0x00000000#32)) dcol
        (broadcastInDim ⟨1, ![E]⟩ ![] hbE (constant (F := Ideal) ⟨0, ![]⟩ .f32 0x3F800000#32))))
    (broadcastInDim ⟨1, ![N]⟩ ![] hbN (constant (F := Ideal) ⟨0, ![]⟩ .f32 0xBF000000#32))

theorem nrmVec_apply (dcol : IVec ⟨2, ![E, 1]⟩ 32) (n : Fin N) :
    nrmVec wfS hbN hbE dcol (ix1 n) = nrmOf (inEdges (N := N) dcol) n := by
  have hs := scatterAddCol_apply wfS
    (broadcastInDim ⟨1, ![N]⟩ ![] hbN (constant (F := Ideal) ⟨0, ![]⟩ .f32 0x00000000#32)) dcol
    (broadcastInDim ⟨1, ![E]⟩ ![] hbE (constant (F := Ideal) ⟨0, ![]⟩ .f32 0x3F800000#32)) n
  unfold nrmVec nrmOf degOf inEdges
  show Ideal.pow (max w1 (Ideal.hostScatterAdd (scatterCol N E wfS) _ dcol _ (ix1 n))) wh = _
  rw [hs]
  rfl

end Norm

/-! ## One raw aggregation -/

section Agg

variable {N E C : ℕ}
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)
  (hb0 : (⟨0, ![]⟩ : Shape).BroadcastsInDim ⟨2, ![N, C]⟩ ![])

/-- The rows of `X` at the edges' sources, scatter-added at the edges' destinations into zeros. -/
def aggArr (X : FVec Ideal ⟨2, ![N, C]⟩ .f32) (scol dcol : IVec ⟨2, ![E, 1]⟩ 32) : FVec Ideal ⟨2, ![N, C]⟩ .f32 :=
  Host.scatterAdd (scatterRows N E C wfS)
    (broadcastInDim ⟨2, ![N, C]⟩ ![] hb0 (constant (F := Ideal) ⟨0, ![]⟩ .f32 0x00000000#32)) dcol
    (Host.gather (gatherRows N E C wfG) X scol)

/-- Entry `(n, c)` of the aggregation: the sum, over the edges arriving at `n`, of `X` at the edge's source row. -/
theorem aggArr_apply (hN : 0 < N) (X : FVec Ideal ⟨2, ![N, C]⟩ .f32) (scol dcol : IVec ⟨2, ![E, 1]⟩ 32) (n : Fin N) (c : Fin C) :
    aggArr wfG wfS hb0 X scol dcol (ix2 n c) = ∑ e ∈ inEdges (N := N) dcol n, X (ix2 (clampRow N hN scol e) c) := by
  unfold aggArr inEdges
  rw [hostScatterAddRows_apply]
  show w0 + _ = _
  rw [show w0 = 0 from Ideal.ofBits_zero_f32, zero_add]
  exact Finset.sum_congr rfl fun e _ => gatherRows_apply wfG scol e c hN X

end Agg

/-! ## Scaling by the normalisation column -/

section Scale

variable {N C : ℕ} (hc : (⟨1, ![N]⟩ : Shape).BroadcastsInDim ⟨2, ![N, 1]⟩ ![0])
  (hm : (⟨2, ![N, 1]⟩ : Shape).BroadcastsInDim ⟨2, ![N, C]⟩ ![0, 1])

/-- The normalisation vector kept as a column and spread over `[N, C]`, at `(n, c)`: the vector at `n`. -/
theorem nrmMat_apply (v : FVec Ideal ⟨1, ![N]⟩ .f32) (n : Fin N) (c : Fin C) :
    broadcastInDim ⟨2, ![N, C]⟩ ![0, 1] hm (broadcastInDim ⟨2, ![N, 1]⟩ ![0] hc v) (ix2 n c) = v (ix1 n) :=
  (bcast_col_mat hm _ n c).trans (bcast_vec_col hc v n 0)

end Scale

end Cert.Sgc

end
-- ==== Proof.KerStages.lean ====
/-
  The host-side stages of the program with the fused dense block, as terms of its arguments: the index columns, the
  normalisation vector and its column, the first raw aggregation (of the features scaled by the factor column), and what the
  lines after the dense block compute from its output `G`: the aggregation of `G` scaled by the factor column, scaled again
  row by row, plus the output bias spread over the rows.
-/
import proofs.«136916_j18047452578202_2_alg».proof.Proof.Gen.KernelIdeal
import proofs.«136916_j18047452578202_2_alg».proof.Proof.HostStages

noncomputable section

namespace Cert.KernelIdeal.KerValue

open Cert.KernelIdeal Cert.KernelIdeal.Gen Idealize.ShloMosaic

/-- The edges' destination numbers, kept as a column. -/
def dstCol (a6 : IVec S1600000 32) : IVec S1600000x1 32 :=
  broadcastInDim S1600000x1 ![0] bcast_S1600000_S1600000x1_0 a6

/-- The edges' source numbers, a negative one counted from the end, kept as a column. -/
def srcCol (a5 : IVec S1600000 32) : IVec S1600000x1 32 :=
  broadcastInDim S1600000x1 ![0] bcast_S1600000_S1600000x1_0
    (select (cmpi .slt a5 (broadcastInDim S1600000 ![] bcast_S_S1600000 (constantI S_ 32 0#32)))
      (addi a5 (broadcastInDim S1600000 ![] bcast_S_S1600000 (constantI S_ 32 100000#32))) a5)

/-- The normalisation vector of the destinations. -/
def nrm (a6 : IVec S1600000 32) : FVec Ideal S100000 .f32 :=
  Cert.Sgc.nrmVec scatter_S100000_S1600000x1_S1600000_n_0_0_1_wf bcast_S_S100000 bcast_S_S1600000 (dstCol a6)

/-- It, kept as a column. -/
def nrmCol (a6 : IVec S1600000 32) : FVec Ideal S100000x1 .f32 :=
  broadcastInDim S100000x1 ![0] bcast_S100000_S100000x1_0 (nrm a6)

/-- The first raw aggregation: of the features scaled row by row by the factor column. -/
def agg1 (a0 : FVec Ideal S100000x128 .f32) (a5 a6 : IVec S1600000 32) : FVec Ideal S100000x128 .f32 :=
  Cert.Sgc.aggArr gather_S100000x128_S1600000x1_S1600000x128_1_0_n_n_0_1_1128_wf
    scatter_S100000x128_S1600000x1_S1600000x128_1_0_0_1_wf bcast_S_S100000x128
    (mulf a0 (broadcastInDim S100000x128 ![0, 1] bcast_S100000x1_S100000x128_0_1 (nrmCol a6))) (srcCol a5) (dstCol a6)

/-- The hidden bias kept as a row. -/
def biasRow (a2 : FVec Ideal S128 .f32) : FVec Ideal S1x128 .f32 := shapeCast S1x128 a2 shapeCasts_S128_S1x128

/-- What the lines after the dense block compute from its output `G` and the factor column `ncol`. -/
def tail (G : FVec Ideal S100000x64 .f32) (ncol : FVec Ideal S100000x1 .f32) (a4 : FVec Ideal S64 .f32)
    (a5 a6 : IVec S1600000 32) : FVec Ideal S100000x64 .f32 :=
  addf
    (mulf (broadcastInDim S100000x64 ![0, 1] bcast_S100000x1_S100000x64_0_1 ncol)
      (Cert.Sgc.aggArr gather_S100000x64_S1600000x1_S1600000x64_1_0_n_n_0_1_164_wf
        scatter_S100000x64_S1600000x1_S1600000x64_1_0_0_1_wf bcast_S_S100000x64
        (mulf G (broadcastInDim S100000x64 ![0, 1] bcast_S100000x1_S100000x64_0_1 ncol)) (srcCol a5) (dstCol a6)))
    (broadcastInDim S100000x64 ![0, 1] bcast_S1x64_S100000x64_0_1 (broadcastInDim S1x64 ![1] bcast_S64_S1x64_1 a4))

end Cert.KernelIdeal.KerValue

end
-- ==== Proof.KerRead.lean ====
/-
  The stages of the program with the fused dense block read at an entry: the factor column is the node's factor; the first
  raw aggregation is the sum over arriving edges of the source's feature times the source's factor; the hidden bias kept as a
  row is the bias; and the lines after the dense block give, at `(n, j)`, the node's factor times the aggregation of the
  dense output, plus the output bias.
-/
import proofs.«136916_j18047452578202_2_alg».proof.Proof.KerStages
import Idealize.ShloMosaic.Lib.ValueLayout

noncomputable section

open scoped BigOperators

namespace Cert.KernelIdeal.KerValue

open Cert.KernelIdeal Cert.KernelIdeal.Gen Cert.Sgc Idealize.ShloMosaic Idealize.ShloMosaic.ValueIdx
  Idealize.ShloMosaic.RowScatter

/-- The edges arriving at node `n`. -/
abbrev SE (a6 : IVec S1600000 32) (n : Fin 100000) : Finset (Fin 1600000) := inEdges (N := 100000) (dstCol a6) n

/-- The source row of edge `e`. -/
abbrev src (a5 : IVec S1600000 32) (e : Fin 1600000) : Fin 100000 := clampRow 100000 (by norm_num) (srcCol a5) e

/-- The node's normalisation factor. -/
abbrev nu (a6 : IVec S1600000 32) (n : Fin 100000) : EReal := nrmOf (SE a6) n

theorem nrmCol_apply (a6 : IVec S1600000 32) (n : Fin 100000) (u : Fin 1) : nrmCol a6 (ix2 n u) = nu a6 n :=
  (bcast_vec_col _ (nrm a6) n u).trans (nrmVec_apply _ _ _ (dstCol a6) n)

theorem agg1_apply (a0 : FVec Ideal S100000x128 .f32) (a5 a6 : IVec S1600000 32) (n : Fin 100000) (l : Fin 128) :
    agg1 a0 a5 a6 (ix2 n l) = agg (SE a6) (src a5) (nu a6) (fun n l => a0 (ix2 n l)) n l := by
  unfold agg1 agg
  rw [aggArr_apply _ _ _ (by norm_num : 0 < 100000)]
  exact Finset.sum_congr rfl fun e _ => by rw [mulf_apply, bcast_col_mat, nrmCol_apply]

theorem biasRow_apply (a2 : FVec Ideal S128 .f32) (u : Fin 1) (k : Fin 128) : biasRow a2 (ix2 u k) = a2 (ix1 k) := by
  unfold biasRow
  refine shapeCast_apply a2 shapeCasts_S128_S1x128 _ _ ?_
  have hu : u.val = 0 := by omega
  rw [Shape.rowMajor_val_one, Shape.rowMajor_val_two]
  show k.val = u.val * 128 + k.val
  omega

/-- The lines after the dense block at an entry, for a factor column that reads the node's factor. -/
theorem tail_apply (G : FVec Ideal S100000x64 .f32) (ncol : FVec Ideal S100000x1 .f32) (a4 : FVec Ideal S64 .f32)
    (a5 a6 : IVec S1600000 32) (hn : ∀ (n : Fin 100000) (u : Fin 1), ncol (ix2 n u) = nu a6 n) (n : Fin 100000) (j : Fin 64) :
    tail G ncol a4 a5 a6 (ix2 n j)
      = nu a6 n * agg (SE a6) (src a5) (nu a6) (fun n j => G (ix2 n j)) n j + a4 (ix1 j) := by
  unfold tail agg
  rw [addf_apply, mulf_apply, bcast_col_mat, hn, aggArr_apply _ _ _ (by norm_num : 0 < 100000)]
  refine congrArg₂ (· + ·) (congrArg (nu a6 n * ·) (Finset.sum_congr rfl fun e _ => ?_))
    ((bcast_row_mat _ _ n j).trans (bcast_vec_row _ a4 0 j))
  rw [mulf_apply, bcast_col_mat, hn]

end Cert.KernelIdeal.KerValue

end
-- ==== Proof.AfterTools.lean ====
/-
  Two facts about a straight line of host operations folded over buffer contents: the fold of a concatenation is the fold of
  the second part over the fold of the first; and a buffer that no operation of a literal line writes keeps its contents
  (each operation writes one buffer, and which reference is which is decidable).
-/
import Idealize.ShloMosaic.Lib.StableHlo.Run

namespace Idealize.ShloMosaic.StableHlo

variable {τ : Topo} {sig : RefSig} {Val : EltTy → Type}

theorem after_append (a b : List (HloOp τ sig Val)) (V : Valuation τ sig Val) :
    after (a ++ b) V = after b (after a V) := by
  induction a generalizing V with
  | nil => rfl
  | cons op a ih => simp only [List.cons_append, after_cons, ih]

end Idealize.ShloMosaic.StableHlo

/-- Closes `after line V (devRef r) = V (devRef r)` for the literal line named, none of whose operations writes `r`. -/
macro "after_keeps " line:ident : tactic =>
  `(tactic|
    (refine Idealize.ShloMosaic.StableHlo.after_of_forall_not_mem _ _ (List.forall_iff_forall_mem.mp ?_)
     simp only [$line:ident, List.Forall, Idealize.ShloMosaic.StableHlo.nullary_writes,
       Idealize.ShloMosaic.StableHlo.unary_writes, Idealize.ShloMosaic.StableHlo.binary_writes,
       Idealize.ShloMosaic.StableHlo.ternary_writes, Idealize.ShloMosaic.StableHlo.reshape_writes, Finset.mem_singleton]
     repeat' apply And.intro
     all_goals exact Idealize.ShloMosaic.StableHlo.devRef_ne_of_ne (by decide)))
-- ==== Proof.KerPrefix.lean ====
/-
  The lines before the dense block, folded over any contents of the buffers: the factor column, the first raw aggregation
  and the hidden bias kept as a row are the stages' terms of the arguments as those contents have them.

  The thirty operations are read stretch by stretch: the in-degrees (ones scatter-added at the destinations), the clamp
  below at one, the power −1/2 kept as a column, the features scaled by that column, the source column, the gather and
  scatter-add of one aggregation, the reshape of the bias. Each stretch writes its own buffers and leaves every other
  buffer as it found it, so what a later stretch reads is what an earlier one wrote or what was there at the start; each
  stretch's result is a term of the few buffers it reads, and the terms compose to the stages'.
-/
import proofs.«136916_j18047452578202_2_alg».proof.Proof.Gen.KernelIdeal.Launch
import proofs.«136916_j18047452578202_2_alg».proof.Proof.KerStages
import proofs.«136916_j18047452578202_2_alg».proof.Proof.AfterTools
import Idealize.ShloMosaic.Lib.StableHlo.Run

set_option Elab.async false

noncomputable section

namespace Cert.KernelIdeal.KerValue

open Cert.KernelIdeal Cert.KernelIdeal.Gen Idealize.ShloMosaic Idealize.ShloMosaic.TcCoe Idealize.SL.Sem
  Idealize.ShloMosaic.StableHlo

section Lines

variable {F : FTy → Type} [FloatOps F]

/-- The power −1/2 of the clamped in-degrees, kept as a column. -/
abbrev linePow : List (HloOp τ sig (Elt F)) :=
  [ StableHlo.nullary main_cst_2 (constant S_ .f32 0xBF000000#32),
    StableHlo.unary main_cst_2 main_v5 (broadcastInDim S100000 ![] bcast_S_S100000 : (⟨S_, .f32⟩ : BufTy).Contents (Elt F) → (⟨S100000, .f32⟩ : BufTy).Contents (Elt F)),
    StableHlo.binary main_v4 main_v5 main_v6 (Host.powf : (⟨S100000, .f32⟩ : BufTy).Contents (Elt F) → (⟨S100000, .f32⟩ : BufTy).Contents (Elt F) → (⟨S100000, .f32⟩ : BufTy).Contents (Elt F)),
    StableHlo.unary main_v6 main_v7 (broadcastInDim S100000x1 ![0] bcast_S100000_S100000x1_0 : (⟨S100000, .f32⟩ : BufTy).Contents (Elt F) → (⟨S100000x1, .f32⟩ : BufTy).Contents (Elt F)) ]

/-- The features scaled row by row by the factor column. -/
abbrev lineScale : List (HloOp τ sig (Elt F)) :=
  [ StableHlo.unary main_v7 main_v8 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v8 main_v9 (mulf : (⟨S100000x128, .f32⟩ : BufTy).Contents (Elt F) → (⟨S100000x128, .f32⟩ : BufTy).Contents (Elt F) → (⟨S100000x128, .f32⟩ : BufTy).Contents (Elt F)) ]

/-- The edges' source numbers, a negative one counted from the end, kept as a column. -/
abbrev lineSrc : List (HloOp τ sig (Elt F)) :=
  [ StableHlo.nullary main_c (constantI S_ 32 0#32),
    StableHlo.unary main_c main_v10 (broadcastInDim S1600000 ![] bcast_S_S1600000 : (⟨S_, .i32⟩ : BufTy).Contents (Elt F) → (⟨S1600000, .i32⟩ : BufTy).Contents (Elt F)),
    StableHlo.binary main_arg5 main_v10 main_v11 (cmpi .slt : (⟨S1600000, .i32⟩ : BufTy).Contents (Elt F) → (⟨S1600000, .i32⟩ : BufTy).Contents (Elt F) → (⟨S1600000, .i1⟩ : BufTy).Contents (Elt F)),
    StableHlo.nullary main_c_3 (constantI S_ 32 100000#32),
    StableHlo.unary main_c_3 main_v12 (broadcastInDim S1600000 ![] bcast_S_S1600000 : (⟨S_, .i32⟩ : BufTy).Contents (Elt F) → (⟨S1600000, .i32⟩ : BufTy).Contents (Elt F)),
    StableHlo.binary main_arg5 main_v12 main_v13 (addi : (⟨S1600000, .i32⟩ : BufTy).Contents (Elt F) → (⟨S1600000, .i32⟩ : BufTy).Contents (Elt F) → (⟨S1600000, .i32⟩ : BufTy).Contents (Elt F)),
    StableHlo.ternary main_v11 main_v13 main_arg5 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v14 main_v15 (broadcastInDim S1600000x1 ![0] bcast_S1600000_S1600000x1_0 : (⟨S1600000, .i32⟩ : BufTy).Contents (Elt F) → (⟨S1600000x1, .i32⟩ : BufTy).Contents (Elt F)) ]

/-- The scaled features' rows gathered at the sources and scatter-added at the destinations into zeros. -/
abbrev lineAgg : List (HloOp τ sig (Elt F)) :=
  [ StableHlo.binary main_v9 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_4 (constant S_ .f32 0x00000000#32),
    StableHlo.unary main_cst_4 main_v17 (broadcastInDim S100000x128 ![] bcast_S_S100000x128 : (⟨S_, .f32⟩ : BufTy).Contents (Elt F) → (⟨S100000x128, .f32⟩ : BufTy).Contents (Elt F)),
    StableHlo.unary main_arg6 main_v18 (broadcastInDim S1600000x1 ![0] bcast_S1600000_S1600000x1_0 : (⟨S1600000, .i32⟩ : BufTy).Contents (Elt F) → (⟨S1600000x1, .i32⟩ : BufTy).Contents (Elt F)),
    StableHlo.ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The hidden bias kept as a row. -/
abbrev lineBias : List (HloOp τ sig (Elt F)) :=
  [ StableHlo.reshape main_arg2 main_v20 rfl shapeCasts_S128_S1x128 ]

/-- The twenty operations in these five stretches. -/
theorem hostOps0_2_eq : (hostOps0_2 : List (HloOp τ sig (Elt F))) = linePow ++ (lineScale ++ (lineSrc ++ (lineAgg ++ lineBias))) := rfl

end Lines

/-! ## What each stretch leaves alone -/

theorem keep_lineScale_v7 (V : Valuation τ sig (Elt Ideal)) :
    after (lineScale (F := Ideal)) V (Proc.devRef .tc main_v7) = V (Proc.devRef .tc main_v7) := by after_keeps lineScale
theorem keep_lineSrc_v7 (V : Valuation τ sig (Elt Ideal)) :
    after (lineSrc (F := Ideal)) V (Proc.devRef .tc main_v7) = V (Proc.devRef .tc main_v7) := by after_keeps lineSrc
theorem keep_lineAgg_v7 (V : Valuation τ sig (Elt Ideal)) :
    after (lineAgg (F := Ideal)) V (Proc.devRef .tc main_v7) = V (Proc.devRef .tc main_v7) := by after_keeps lineAgg
theorem keep_lineBias_v7 (V : Valuation τ sig (Elt Ideal)) :
    after (lineBias (F := Ideal)) V (Proc.devRef .tc main_v7) = V (Proc.devRef .tc main_v7) := by after_keeps lineBias
theorem keep_lineBias_v19 (V : Valuation τ sig (Elt Ideal)) :
    after (lineBias (F := Ideal)) V (Proc.devRef .tc main_v19) = V (Proc.devRef .tc main_v19) := by after_keeps lineBias
theorem keep_lineSrc_v9 (V : Valuation τ sig (Elt Ideal)) :
    after (lineSrc (F := Ideal)) V (Proc.devRef .tc main_v9) = V (Proc.devRef .tc main_v9) := by after_keeps lineSrc
theorem keep_linePow_arg0 (V : Valuation τ sig (Elt Ideal)) :
    after (linePow (F := Ideal)) V (Proc.devRef .tc main_arg0) = V (Proc.devRef .tc main_arg0) := by after_keeps linePow
theorem keep_hostOps0_1_arg0 (V : Valuation τ sig (Elt Ideal)) :
    after (hostOps0_1 (F := Ideal)) V (Proc.devRef .tc main_arg0) = V (Proc.devRef .tc main_arg0) := by after_keeps hostOps0_1
theorem keep_hostOps0_arg0 (V : Valuation τ sig (Elt Ideal)) :
    after (hostOps0 (F := Ideal)) V (Proc.devRef .tc main_arg0) = V (Proc.devRef .tc main_arg0) := by after_keeps hostOps0
theorem keep_lineScale_arg5 (V : Valuation τ sig (Elt Ideal)) :
    after (lineScale (F := Ideal)) V (Proc.devRef .tc main_arg5) = V (Proc.devRef .tc main_arg5) := by after_keeps lineScale
theorem keep_linePow_arg5 (V : Valuation τ sig (Elt Ideal)) :
    after (linePow (F := Ideal)) V (Proc.devRef .tc main_arg5) = V (Proc.devRef .tc main_arg5) := by after_keeps linePow
theorem keep_hostOps0_1_arg5 (V : Valuation τ sig (Elt Ideal)) :
    after (hostOps0_1 (F := Ideal)) V (Proc.devRef .tc main_arg5) = V (Proc.devRef .tc main_arg5) := by after_keeps hostOps0_1
theorem keep_hostOps0_arg5 (V : Valuation τ sig (Elt Ideal)) :
    after (hostOps0 (F := Ideal)) V (Proc.devRef .tc main_arg5) = V (Proc.devRef .tc main_arg5) := by after_keeps hostOps0
theorem keep_lineSrc_arg6 (V : Valuation τ sig (Elt Ideal)) :
    after (lineSrc (F := Ideal)) V (Proc.devRef .tc main_arg6) = V (Proc.devRef .tc main_arg6) := by after_keeps lineSrc
theorem keep_lineScale_arg6 (V : Valuation τ sig (Elt Ideal)) :
    after (lineScale (F := Ideal)) V (Proc.devRef .tc main_arg6) = V (Proc.devRef .tc main_arg6) := by after_keeps lineScale
theorem keep_linePow_arg6 (V : Valuation τ sig (Elt Ideal)) :
    after (linePow (F := Ideal)) V (Proc.devRef .tc main_arg6) = V (Proc.devRef .tc main_arg6) := by after_keeps linePow
theorem keep_hostOps0_1_arg6 (V : Valuation τ sig (Elt Ideal)) :
    after (hostOps0_1 (F := Ideal)) V (Proc.devRef .tc main_arg6) = V (Proc.devRef .tc main_arg6) := by after_keeps hostOps0_1
theorem keep_hostOps0_arg6 (V : Valuation τ sig (Elt Ideal)) :
    after (hostOps0 (F := Ideal)) V (Proc.devRef .tc main_arg6) = V (Proc.devRef .tc main_arg6) := by after_keeps hostOps0
theorem keep_lineAgg_arg2 (V : Valuation τ sig (Elt Ideal)) :
    after (lineAgg (F := Ideal)) V (Proc.devRef .tc main_arg2) = V (Proc.devRef .tc main_arg2) := by after_keeps lineAgg
theorem keep_lineSrc_arg2 (V : Valuation τ sig (Elt Ideal)) :
    after (lineSrc (F := Ideal)) V (Proc.devRef .tc main_arg2) = V (Proc.devRef .tc main_arg2) := by after_keeps lineSrc
theorem keep_lineScale_arg2 (V : Valuation τ sig (Elt Ideal)) :
    after (lineScale (F := Ideal)) V (Proc.devRef .tc main_arg2) = V (Proc.devRef .tc main_arg2) := by after_keeps lineScale
theorem keep_linePow_arg2 (V : Valuation τ sig (Elt Ideal)) :
    after (linePow (F := Ideal)) V (Proc.devRef .tc main_arg2) = V (Proc.devRef .tc main_arg2) := by after_keeps linePow
theorem keep_hostOps0_1_arg2 (V : Valuation τ sig (Elt Ideal)) :
    after (hostOps0_1 (F := Ideal)) V (Proc.devRef .tc main_arg2) = V (Proc.devRef .tc main_arg2) := by after_keeps hostOps0_1
theorem keep_hostOps0_arg2 (V : Valuation τ sig (Elt Ideal)) :
    after (hostOps0 (F := Ideal)) V (Proc.devRef .tc main_arg2) = V (Proc.devRef .tc main_arg2) := by after_keeps hostOps0

/-! ## What each stretch computes, from any contents of the buffers it reads -/

attribute [local irreducible] Host.gather Host.scatterAdd Host.powf in
set_option maxRecDepth 16384 in
set_option maxHeartbeats 2000000 in
/-- The in-degrees: ones scatter-added at the destinations into zeros. -/
theorem hostOps0_v3 (W : Valuation τ sig (Elt Ideal)) :
    after (hostOps0 (F := Ideal)) W (Proc.devRef .tc main_v3)
      = Host.scatterAdd scatter_S100000_S1600000x1_S1600000_n_0_0_1
          (broadcastInDim S100000 ![] bcast_S_S100000 (constant (F := Ideal) S_ .f32 0x00000000#32))
          (dstCol (W (Proc.devRef .tc main_arg6)))
          (broadcastInDim S1600000 ![] bcast_S_S1600000 (constant (F := Ideal) S_ .f32 0x3F800000#32)) := by
  unfold hostOps0
  after_results
  all_goals rfl

attribute [local irreducible] Host.gather Host.scatterAdd Host.powf in
set_option maxRecDepth 16384 in
set_option maxHeartbeats 2000000 in
/-- The constant one the clamp reads. -/
theorem hostOps0_cst_1 (W : Valuation τ sig (Elt Ideal)) :
    after (hostOps0 (F := Ideal)) W (Proc.devRef .tc main_cst_1) = constant (F := Ideal) S_ .f32 0x3F800000#32 := by
  unfold hostOps0
  after_results
  all_goals rfl

attribute [local irreducible] Host.gather Host.scatterAdd Host.powf in
set_option maxRecDepth 16384 in
set_option maxHeartbeats 2000000 in
/-- The clamp: the maximum of the constant spread over the nodes and the in-degrees. -/
theorem hostOps0_1_v4 (W : Valuation τ sig (Elt Ideal)) :
    after (hostOps0_1 (F := Ideal)) W (Proc.devRef .tc main_v4)
      = (maximumf (broadcastInDim S100000 ![] bcast_S_S100000 (id (W (Proc.devRef .tc main_cst_1) : FVec Ideal S_ .f32)))
          (W (Proc.devRef .tc main_v3) : FVec Ideal S100000 .f32) : FVec Ideal S100000 .f32) := by
  unfold hostOps0_1
  after_results
  all_goals rfl

attribute [local irreducible] Host.gather Host.scatterAdd Host.powf in
set_option maxRecDepth 16384 in
set_option maxHeartbeats 2000000 in
/-- After the power stretch the factor column is the power −1/2 of what the clamp left, kept as a column. -/
theorem linePow_v7 (W : Valuation τ sig (Elt Ideal)) :
    after (linePow (F := Ideal)) W (Proc.devRef .tc main_v7)
      = broadcastInDim S100000x1 ![0] bcast_S100000_S100000x1_0
          (Host.powf (W (Proc.devRef .tc main_v4) : FVec Ideal S100000 .f32)
            (broadcastInDim S100000 ![] bcast_S_S100000 (constant (F := Ideal) S_ .f32 0xBF000000#32))) := by
  unfold linePow
  after_results
  all_goals rfl

attribute [local irreducible] Host.gather Host.scatterAdd Host.powf in
set_option maxRecDepth 16384 in
set_option maxHeartbeats 2000000 in
/-- The features scaled row by row by the factor column. -/
theorem lineScale_v9 (W : Valuation τ sig (Elt Ideal)) :
    after (lineScale (F := Ideal)) W (Proc.devRef .tc main_v9)
      = (mulf (W (Proc.devRef .tc main_arg0) : FVec Ideal S100000x128 .f32)
          (broadcastInDim S100000x128 ![0, 1] bcast_S100000x1_S100000x128_0_1
            (W (Proc.devRef .tc main_v7) : FVec Ideal S100000x1 .f32)) : FVec Ideal S100000x128 .f32) := by
  unfold lineScale
  after_results
  all_goals rfl

attribute [local irreducible] Host.gather Host.scatterAdd Host.powf in
set_option maxRecDepth 16384 in
set_option maxHeartbeats 2000000 in
/-- The source column. -/
theorem lineSrc_v15 (W : Valuation τ sig (Elt Ideal)) :
    after (lineSrc (F := Ideal)) W (Proc.devRef .tc main_v15) = srcCol (W (Proc.devRef .tc main_arg5)) := by
  unfold lineSrc
  after_results
  all_goals rfl

attribute [local irreducible] Host.gather Host.scatterAdd Host.powf in
set_option maxRecDepth 16384 in
set_option maxHeartbeats 2000000 in
/-- The aggregation of whatever the scaled-features buffer holds, at whatever source column. -/
theorem lineAgg_v19 (W : Valuation τ sig (Elt Ideal)) :
    after (lineAgg (F := Ideal)) W (Proc.devRef .tc main_v19)
      = Host.scatterAdd scatter_S100000x128_S1600000x1_S1600000x128_1_0_0_1
          (broadcastInDim S100000x128 ![] bcast_S_S100000x128 (constant (F := Ideal) S_ .f32 0x00000000#32))
          (dstCol (W (Proc.devRef .tc main_arg6)))
          (Host.gather gather_S100000x128_S1600000x1_S1600000x128_1_0_n_n_0_1_1128
            (W (Proc.devRef .tc main_v9) : FVec Ideal S100000x128 .f32)
            (W (Proc.devRef .tc main_v15) : IVec S1600000x1 32)) := by
  unfold lineAgg
  after_results
  all_goals rfl

attribute [local irreducible] Host.gather Host.scatterAdd Host.powf in
set_option maxRecDepth 16384 in
set_option maxHeartbeats 2000000 in
/-- The hidden bias kept as a row. -/
theorem lineBias_v20 (W : Valuation τ sig (Elt Ideal)) :
    after (lineBias (F := Ideal)) W (Proc.devRef .tc main_v20) = biasRow (W (Proc.devRef .tc main_arg2)) := by
  unfold lineBias
  after_results
  all_goals rfl

/-! ## The thirty operations before the dense block -/

attribute [local irreducible] Host.gather Host.scatterAdd Host.powf in
set_option maxRecDepth 16384 in
set_option maxHeartbeats 2000000 in
/-- The factor column after the thirty operations before the dense block. -/
theorem prefix_v7 (W : Valuation τ sig (Elt Ideal)) :
    after (List.flatten [hostOps0 (F := Ideal), hostOps0_1, hostOps0_2]) W (Proc.devRef .tc main_v7)
      = nrmCol (W (Proc.devRef .tc main_arg6)) := by
  simp only [List.flatten_cons, List.flatten_nil, List.append_nil]
  rw [hostOps0_2_eq]
  simp only [after_append]
  rw [keep_lineBias_v7, keep_lineAgg_v7, keep_lineSrc_v7, keep_lineScale_v7, linePow_v7, hostOps0_1_v4, hostOps0_v3,
    hostOps0_cst_1]
  rfl

attribute [local irreducible] Host.gather Host.scatterAdd Host.powf in
set_option maxRecDepth 16384 in
set_option maxHeartbeats 2000000 in
/-- The first raw aggregation after them. -/
theorem prefix_v19 (W : Valuation τ sig (Elt Ideal)) :
    after (List.flatten [hostOps0 (F := Ideal), hostOps0_1, hostOps0_2]) W (Proc.devRef .tc main_v19)
      = agg1 (W (Proc.devRef .tc main_arg0)) (W (Proc.devRef .tc main_arg5)) (W (Proc.devRef .tc main_arg6)) := by
  simp only [List.flatten_cons, List.flatten_nil, List.append_nil]
  rw [hostOps0_2_eq]
  simp only [after_append]
  rw [keep_lineBias_v19, lineAgg_v19, keep_lineSrc_v9, lineScale_v9, lineSrc_v15,
    keep_lineSrc_arg6, keep_lineScale_arg6, keep_linePow_arg6, keep_hostOps0_1_arg6, keep_hostOps0_arg6,
    keep_lineScale_arg5, keep_linePow_arg5, keep_hostOps0_1_arg5, keep_hostOps0_arg5,
    keep_linePow_arg0, keep_hostOps0_1_arg0, keep_hostOps0_arg0,
    linePow_v7, hostOps0_1_v4, hostOps0_v3, hostOps0_cst_1]
  rfl

attribute [local irreducible] Host.gather Host.scatterAdd Host.powf in
set_option maxRecDepth 16384 in
set_option maxHeartbeats 2000000 in
/-- The hidden bias kept as a row after them. -/
theorem prefix_v20 (W : Valuation τ sig (Elt Ideal)) :
    after (List.flatten [hostOps0 (F := Ideal), hostOps0_1, hostOps0_2]) W (Proc.devRef .tc main_v20)
      = biasRow (W (Proc.devRef .tc main_arg2)) := by
  simp only [List.flatten_cons, List.flatten_nil, List.append_nil]
  rw [hostOps0_2_eq]
  simp only [after_append]
  rw [lineBias_v20, keep_lineAgg_arg2, keep_lineSrc_arg2, keep_lineScale_arg2, keep_linePow_arg2, keep_hostOps0_1_arg2,
    keep_hostOps0_arg2]

end Cert.KernelIdeal.KerValue

end
-- ==== Proof.KerTail.lean ====
/-
  The lines after the dense block, folded over any contents of the buffers: the result buffer ends at `tail` of the dense
  block's output, the factor column, the output bias and the two index vectors as those contents have them.

  The twenty operations are read stretch by stretch: the dense output scaled by the factor column, the source column, the
  gather and scatter-add of one aggregation, and the last scaling plus the output bias spread over the rows. Each stretch
  leaves every buffer it does not write as it found it, and its result is a term of the few buffers it reads.
-/
import proofs.«136916_j18047452578202_2_alg».proof.Proof.Gen.KernelIdeal.Launch
import proofs.«136916_j18047452578202_2_alg».proof.Proof.KerStages
import proofs.«136916_j18047452578202_2_alg».proof.Proof.AfterTools
import Idealize.ShloMosaic.Lib.StableHlo.Run

set_option Elab.async false

noncomputable section

namespace Cert.KernelIdeal.KerValue

open Cert.KernelIdeal Cert.KernelIdeal.Gen Idealize.ShloMosaic Idealize.ShloMosaic.TcCoe Idealize.SL.Sem
  Idealize.ShloMosaic.StableHlo

section Lines

variable {F : FTy → Type} [FloatOps F]

/-- The dense block's output scaled row by row by the factor column. -/
abbrev tailScale : List (HloOp τ sig (Elt F)) :=
  [ StableHlo.unary main_v7 main_v22 (broadcastInDim S100000x64 ![0, 1] bcast_S100000x1_S100000x64_0_1 : (⟨S100000x1, .f32⟩ : BufTy).Contents (Elt F) → (⟨S100000x64, .f32⟩ : BufTy).Contents (Elt F)),
    StableHlo.binary main_v21 main_v22 main_v23 (mulf : (⟨S100000x64, .f32⟩ : BufTy).Contents (Elt F) → (⟨S100000x64, .f32⟩ : BufTy).Contents (Elt F) → (⟨S100000x64, .f32⟩ : BufTy).Contents (Elt F)) ]

/-- The edges' source numbers, a negative one counted from the end, kept as a column. -/
abbrev tailSrc : List (HloOp τ sig (Elt F)) :=
  [ StableHlo.nullary main_c_5 (constantI S_ 32 0#32),
    StableHlo.unary main_c_5 main_v24 (broadcastInDim S1600000 ![] bcast_S_S1600000 : (⟨S_, .i32⟩ : BufTy).Contents (Elt F) → (⟨S1600000, .i32⟩ : BufTy).Contents (Elt F)),
    StableHlo.binary main_arg5 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v26 (broadcastInDim S1600000 ![] bcast_S_S1600000 : (⟨S_, .i32⟩ : BufTy).Contents (Elt F) → (⟨S1600000, .i32⟩ : BufTy).Contents (Elt F)),
    StableHlo.binary main_arg5 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_arg5 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)) ]

/-- The scaled output's rows gathered at the sources and scatter-added at the destinations into zeros. -/
abbrev tailAgg : List (HloOp τ sig (Elt F)) :=
  [ StableHlo.binary main_v23 main_v29 main_v30 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_7 (constant S_ .f32 0x00000000#32),
    StableHlo.unary main_cst_7 main_v31 (broadcastInDim S100000x64 ![] bcast_S_S100000x64 : (⟨S_, .f32⟩ : BufTy).Contents (Elt F) → (⟨S100000x64, .f32⟩ : BufTy).Contents (Elt F)),
    StableHlo.unary main_arg6 main_v32 (broadcastInDim S1600000x1 ![0] bcast_S1600000_S1600000x1_0 : (⟨S1600000, .i32⟩ : BufTy).Contents (Elt F) → (⟨S1600000x1, .i32⟩ : BufTy).Contents (Elt F)),
    StableHlo.ternary main_v31 main_v32 main_v30 main_v33 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The aggregation scaled row by row again, plus the output bias spread over the rows. -/
abbrev tailOut : List (HloOp τ sig (Elt F)) :=
  [ StableHlo.unary main_v7 main_v34 (broadcastInDim S100000x64 ![0, 1] bcast_S100000x1_S100000x64_0_1 : (⟨S100000x1, .f32⟩ : BufTy).Contents (Elt F) → (⟨S100000x64, .f32⟩ : BufTy).Contents (Elt F)),
    StableHlo.binary main_v34 main_v33 main_v35 (mulf : (⟨S100000x64, .f32⟩ : BufTy).Contents (Elt F) → (⟨S100000x64, .f32⟩ : BufTy).Contents (Elt F) → (⟨S100000x64, .f32⟩ : BufTy).Contents (Elt F)),
    StableHlo.unary main_arg4 main_v36 (broadcastInDim S1x64 ![1] bcast_S64_S1x64_1 : (⟨S64, .f32⟩ : BufTy).Contents (Elt F) → (⟨S1x64, .f32⟩ : BufTy).Contents (Elt F)),
    StableHlo.unary main_v36 main_v37 (broadcastInDim S100000x64 ![0, 1] bcast_S1x64_S100000x64_0_1 : (⟨S1x64, .f32⟩ : BufTy).Contents (Elt F) → (⟨S100000x64, .f32⟩ : BufTy).Contents (Elt F)),
    StableHlo.binary main_v35 main_v37 main_v38 (addf : (⟨S100000x64, .f32⟩ : BufTy).Contents (Elt F) → (⟨S100000x64, .f32⟩ : BufTy).Contents (Elt F) → (⟨S100000x64, .f32⟩ : BufTy).Contents (Elt F)) ]

/-- The twenty operations in these four stretches. -/
theorem hostOps1_eq : (hostOps1 : List (HloOp τ sig (Elt F))) = tailScale ++ (tailSrc ++ (tailAgg ++ tailOut)) := rfl

end Lines

/-! ## What each stretch leaves alone -/

theorem keep_tailAgg_v7 (V : Valuation τ sig (Elt Ideal)) :
    after (tailAgg (F := Ideal)) V (Proc.devRef .tc main_v7) = V (Proc.devRef .tc main_v7) := by after_keeps tailAgg
theorem keep_tailSrc_v7 (V : Valuation τ sig (Elt Ideal)) :
    after (tailSrc (F := Ideal)) V (Proc.devRef .tc main_v7) = V (Proc.devRef .tc main_v7) := by after_keeps tailSrc
theorem keep_tailScale_v7 (V : Valuation τ sig (Elt Ideal)) :
    after (tailScale (F := Ideal)) V (Proc.devRef .tc main_v7) = V (Proc.devRef .tc main_v7) := by after_keeps tailScale
theorem keep_tailAgg_arg4 (V : Valuation τ sig (Elt Ideal)) :
    after (tailAgg (F := Ideal)) V (Proc.devRef .tc main_arg4) = V (Proc.devRef .tc main_arg4) := by after_keeps tailAgg
theorem keep_tailSrc_arg4 (V : Valuation τ sig (Elt Ideal)) :
    after (tailSrc (F := Ideal)) V (Proc.devRef .tc main_arg4) = V (Proc.devRef .tc main_arg4) := by after_keeps tailSrc
theorem keep_tailScale_arg4 (V : Valuation τ sig (Elt Ideal)) :
    after (tailScale (F := Ideal)) V (Proc.devRef .tc main_arg4) = V (Proc.devRef .tc main_arg4) := by after_keeps tailScale
theorem keep_tailSrc_arg6 (V : Valuation τ sig (Elt Ideal)) :
    after (tailSrc (F := Ideal)) V (Proc.devRef .tc main_arg6) = V (Proc.devRef .tc main_arg6) := by after_keeps tailSrc
theorem keep_tailScale_arg6 (V : Valuation τ sig (Elt Ideal)) :
    after (tailScale (F := Ideal)) V (Proc.devRef .tc main_arg6) = V (Proc.devRef .tc main_arg6) := by after_keeps tailScale
theorem keep_tailSrc_v23 (V : Valuation τ sig (Elt Ideal)) :
    after (tailSrc (F := Ideal)) V (Proc.devRef .tc main_v23) = V (Proc.devRef .tc main_v23) := by after_keeps tailSrc
theorem keep_tailScale_arg5 (V : Valuation τ sig (Elt Ideal)) :
    after (tailScale (F := Ideal)) V (Proc.devRef .tc main_arg5) = V (Proc.devRef .tc main_arg5) := by after_keeps tailScale

/-! ## What each stretch computes, from any contents of the buffers it reads -/

attribute [local irreducible] Host.gather Host.scatterAdd in
set_option maxRecDepth 16384 in
set_option maxHeartbeats 2000000 in
/-- The dense block's output scaled row by row by the factor column. -/
theorem tailScale_v23 (W : Valuation τ sig (Elt Ideal)) :
    after (tailScale (F := Ideal)) W (Proc.devRef .tc main_v23)
      = (mulf (W (Proc.devRef .tc main_v21) : FVec Ideal S100000x64 .f32)
          (broadcastInDim S100000x64 ![0, 1] bcast_S100000x1_S100000x64_0_1
            (W (Proc.devRef .tc main_v7) : FVec Ideal S100000x1 .f32)) : FVec Ideal S100000x64 .f32) := by
  unfold tailScale
  after_results
  all_goals rfl

attribute [local irreducible] Host.gather Host.scatterAdd in
set_option maxRecDepth 16384 in
set_option maxHeartbeats 2000000 in
/-- The source column. -/
theorem tailSrc_v29 (W : Valuation τ sig (Elt Ideal)) :
    after (tailSrc (F := Ideal)) W (Proc.devRef .tc main_v29) = srcCol (W (Proc.devRef .tc main_arg5)) := by
  unfold tailSrc
  after_results
  all_goals rfl

attribute [local irreducible] Host.gather Host.scatterAdd in
set_option maxRecDepth 16384 in
set_option maxHeartbeats 2000000 in
/-- The aggregation of whatever the scaled-output buffer holds, at whatever source column. -/
theorem tailAgg_v33 (W : Valuation τ sig (Elt Ideal)) :
    after (tailAgg (F := Ideal)) W (Proc.devRef .tc main_v33)
      = Host.scatterAdd scatter_S100000x64_S1600000x1_S1600000x64_1_0_0_1
          (broadcastInDim S100000x64 ![] bcast_S_S100000x64 (constant (F := Ideal) S_ .f32 0x00000000#32))
          (dstCol (W (Proc.devRef .tc main_arg6)))
          (Host.gather gather_S100000x64_S1600000x1_S1600000x64_1_0_n_n_0_1_164
            (W (Proc.devRef .tc main_v23) : FVec Ideal S100000x64 .f32)
            (W (Proc.devRef .tc main_v29) : IVec S1600000x1 32)) := by
  unfold tailAgg
  after_results
  all_goals rfl

attribute [local irreducible] Host.gather Host.scatterAdd in
set_option maxRecDepth 16384 in
set_option maxHeartbeats 2000000 in
/-- The aggregation scaled row by row by the factor column, plus the output bias spread over the rows. -/
theorem tailOut_v38 (W : Valuation τ sig (Elt Ideal)) :
    after (tailOut (F := Ideal)) W (Proc.devRef .tc main_v38)
      = (addf
          (mulf (broadcastInDim S100000x64 ![0, 1] bcast_S100000x1_S100000x64_0_1
              (W (Proc.devRef .tc main_v7) : FVec Ideal S100000x1 .f32))
            (W (Proc.devRef .tc main_v33) : FVec Ideal S100000x64 .f32))
          (broadcastInDim S100000x64 ![0, 1] bcast_S1x64_S100000x64_0_1
            (broadcastInDim S1x64 ![1] bcast_S64_S1x64_1 (W (Proc.devRef .tc main_arg4) : FVec Ideal S64 .f32)))
          : FVec Ideal S100000x64 .f32) := by
  unfold tailOut
  after_results
  all_goals rfl

/-! ## The twenty operations after the dense block -/

attribute [local irreducible] Host.gather Host.scatterAdd in
set_option maxRecDepth 16384 in
set_option maxHeartbeats 2000000 in
/-- The twenty operations after the dense block, at the result buffer. -/
theorem tail_eq (W : Valuation τ sig (Elt Ideal)) :
    after (hostOps1 (F := Ideal)) W (Proc.devRef .tc main_v38)
      = tail (W (Proc.devRef .tc main_v21)) (W (Proc.devRef .tc main_v7)) (W (Proc.devRef .tc main_arg4))
          (W (Proc.devRef .tc main_arg5)) (W (Proc.devRef .tc main_arg6)) := by
  rw [hostOps1_eq]
  simp only [after_append]
  rw [tailOut_v38, tailAgg_v33, tailSrc_v29,
    keep_tailAgg_v7, keep_tailSrc_v7, keep_tailScale_v7,
    keep_tailAgg_arg4, keep_tailSrc_arg4, keep_tailScale_arg4,
    keep_tailSrc_arg6, keep_tailScale_arg6,
    keep_tailSrc_v23, keep_tailScale_arg5, tailScale_v23]
  rfl

end Cert.KernelIdeal.KerValue

end
-- ==== Proof.KerValue.lean ====
/-
  The result of the program with the fused dense block, read at an entry. The lines after the dense block start from the
  buffers as the region leaves them: the dense block's output array, the factor column (an input of the region, so as it
  was when the region was entered), and the arguments as launched. With `S n` the edges arriving at `n`, `src e` the source
  row of edge `e` and `ν n` the node's factor, entry `(n, j)` of the result is
      ν n · Σ_{e ∈ S n} g(src e, j) · ν(src e) + b₂[j],
  `g(n, j) = Σ_k elu(Σ_l (Σ_{e ∈ S n} F[src e, l] · ν(src e)) · ν n · W₁[l, k] + b₁[k]) · W₂[k, j]` the dense block of row `n`.
-/
import proofs.«136916_j18047452578202_2_alg».proof.Proof.RegionValue
import proofs.«136916_j18047452578202_2_alg».proof.Proof.KerRead
import proofs.«136916_j18047452578202_2_alg».proof.Proof.KerPrefix
import proofs.«136916_j18047452578202_2_alg».proof.Proof.KerTail
import Idealize.ShloMosaic.Lib.Pipeline.FrameSuffix

set_option Elab.async false

noncomputable section

open scoped BigOperators

namespace Cert.KernelIdeal.KerValue

open Cert.KernelIdeal Cert.KernelIdeal.Gen Cert.Sgc Idealize.ShloMosaic Idealize.ShloMosaic.ValueIdx
  Idealize.ShloMosaic.TcCoe Idealize.SL.Sem Idealize.ShloMosaic.StableHlo
open Idealize.ShloMosaic.Pipeline (Dat)

variable (m : (ℓ : Loc nD τ sig) → Buf (Elt Ideal) ℓ) (c : Dev nD)

/-! ## The buffers the region finds -/

theorem V_v7 : Gen.V m c main_v7 = nrmCol (m ((c : Thread nD τ).loc main_arg6)) :=
  prefix_v7 (fun b => m (c, b))

theorem V_v19 : Gen.V m c main_v19
    = agg1 (m ((c : Thread nD τ).loc main_arg0)) (m ((c : Thread nD τ).loc main_arg5)) (m ((c : Thread nD τ).loc main_arg6)) :=
  prefix_v19 (fun b => m (c, b))

theorem V_v20 : Gen.V m c main_v20 = biasRow (m ((c : Thread nD τ).loc main_arg2)) :=
  prefix_v20 (fun b => m (c, b))

/-! ## The lines after the region -/

/-- The result buffer after the run: the tail of the dense block's output array, the factor column as the region found it,
    and the output bias and index vectors as launched. -/
theorem tail_reads :
    Pipeline.afterTail₀ cfgs (Gen.dats m) 0 (Gen.V0 m) [hostOps1] c main_v38
      = tail ((Gen.dats m 0 c).arrAt 5 cfg0.N) (Gen.V m c main_v7) (m ((c : Thread nD τ).loc main_arg4))
          (m ((c : Thread nD τ).loc main_arg5)) (m ((c : Thread nD τ).loc main_arg6)) := by
  unfold Pipeline.afterTail₀
  simp only [List.flatten_cons, List.flatten_nil, List.append_nil]
  rw [tail_eq]
  rw [Pipeline.withArrays_arr spec0 launch0.win.arr_inj c (Gen.V0 m c) _ 5,
    Pipeline.withArrays_arr spec0 launch0.win.arr_inj c (Gen.V0 m c) _ 1,
    Pipeline.withArrays_of_ne _ c (Gen.V0 m c) _ main_arg4 (by exact (by decide : ∀ w, Pipeline.arrRef spec0 w ≠ main_arg4)),
    Pipeline.withArrays_of_ne _ c (Gen.V0 m c) _ main_arg5 (by exact (by decide : ∀ w, Pipeline.arrRef spec0 w ≠ main_arg5)),
    Pipeline.withArrays_of_ne _ c (Gen.V0 m c) _ main_arg6 (by exact (by decide : ∀ w, Pipeline.arrRef spec0 w ≠ main_arg6))]
  rw [show (Gen.dats m 0 c).arrAt 1 cfg0.N = Gen.V m c main_v7 from
      ((Gen.dats m 0 c).arrAt_in 1 rfl _).trans (Gen.A_eq m c 1)]
  rw [show Gen.V0 m c (Proc.devRef .tc main_arg4) = m ((c : Thread nD τ).loc main_arg4) from Gen.V_main_arg4 m c,
    show Gen.V0 m c (Proc.devRef .tc main_arg5) = m ((c : Thread nD τ).loc main_arg5) from Gen.V_main_arg5 m c,
    show Gen.V0 m c (Proc.devRef .tc main_arg6) = m ((c : Thread nD τ).loc main_arg6) from Gen.V_main_arg6 m c]

/-! ## The result at an entry -/

/-- **The result at entry `(n, j)`.** -/
theorem ker_entry (n : Fin 100000) (j : Fin 64) :
    Pipeline.afterTail₀ cfgs (Gen.dats m) 0 (Gen.V0 m) [hostOps1] c main_v38 (ix2 n j)
      = kerOut (SE (m ((c : Thread nD τ).loc main_arg6))) (src (m ((c : Thread nD τ).loc main_arg5)))
          (nu (m ((c : Thread nD τ).loc main_arg6)))
          (fun n l => m ((c : Thread nD τ).loc main_arg0) (ix2 n l)) (fun l k => m ((c : Thread nD τ).loc main_arg1) (ix2 l k))
          (fun k => m ((c : Thread nD τ).loc main_arg2) (ix1 k)) (fun k j => m ((c : Thread nD τ).loc main_arg3) (ix2 k j))
          (fun j => m ((c : Thread nD τ).loc main_arg4) (ix1 j)) n j := by
  rw [tail_reads]
  rw [tail_apply _ _ _ _ _ (fun n u => by rw [V_v7]; exact nrmCol_apply _ n u)]
  unfold kerOut
  refine congrArg (· + m ((c : Thread nD τ).loc main_arg4) (ix1 j)) (congrArg (nu (m ((c : Thread nD τ).loc main_arg6)) n * ·) ?_)
  refine congrArg (fun X => agg (SE (m ((c : Thread nD τ).loc main_arg6))) (src (m ((c : Thread nD τ).loc main_arg5)))
    (nu (m ((c : Thread nD τ).loc main_arg6))) X n j) ?_
  funext n' j'
  rw [RegionValue.region_entry]
  have e19 : ∀ l : Fin 128, Gen.V m c main_v19 (ix2 n' l)
      = agg (SE (m ((c : Thread nD τ).loc main_arg6))) (src (m ((c : Thread nD τ).loc main_arg5)))
          (nu (m ((c : Thread nD τ).loc main_arg6))) (fun n l => m ((c : Thread nD τ).loc main_arg0) (ix2 n l)) n' l :=
    fun l => by rw [V_v19]; exact agg1_apply _ _ _ n' l
  have e7 : Gen.V m c main_v7 (ix2 n' (0 : Fin 1)) = nu (m ((c : Thread nD τ).loc main_arg6)) n' := by
    rw [V_v7]; exact nrmCol_apply _ n' 0
  have e1 : ∀ (l k : Fin 128), Gen.V m c main_arg1 (ix2 l k) = m ((c : Thread nD τ).loc main_arg1) (ix2 l k) :=
    fun l k => by rw [Gen.V_main_arg1]
  have e20 : ∀ k : Fin 128, Gen.V m c main_v20 (ix2 (0 : Fin 1) k) = m ((c : Thread nD τ).loc main_arg2) (ix1 k) :=
    fun k => by rw [V_v20]; exact biasRow_apply _ 0 k
  have e3 : ∀ (k : Fin 128) (j : Fin 64), Gen.V m c main_arg3 (ix2 k j) = m ((c : Thread nD τ).loc main_arg3) (ix2 k j) :=
    fun k j => by rw [Gen.V_main_arg3]
  simp only [e19, e7, e1, e20, e3]
  rfl

end Cert.KernelIdeal.KerValue

end
-- ==== Proof.RefRun.lean ====
/-
  The reference program run as a straight line. Its @main is 71 host operations once the four functions it calls are
  unfolded at their calls (the clamp of the in-degrees below at one; ELU, which itself calls two selects): constants and
  their broadcasts, the two index columns, a scatter-add of ones (in-degrees), the power −1/2, and twice a gather at the
  edges' sources followed by a scatter-add at the edges' destinations, around a dense layer with ELU and a second dense
  layer. Every weakly fair execution terminates with the result buffer at the operations' composed term of the
  arguments, the arguments unchanged.
-/
import proofs.«136916_j18047452578202_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the calls unfolded: the clamp is three (the bound converted to its own type, its
    broadcast, the maximum); ELU is fifteen (zero, its broadcast and the comparison, twice; a third zero and the
    inner select's three; `exp − 1`; one, its broadcast, the product; the outer select). -/
abbrev ops : List (HloOp τ sig (Elt F)) :=
  [ nullary main_cst (constant S_ .f32 0x3F800000#32),
    unary main_cst main_v0 (broadcastInDim S1600000 ![] bcast_S_S1600000),
    nullary main_cst_0 (constant S_ .f32 0x00000000#32),
    unary main_cst_0 main_v1 (broadcastInDim S100000 ![] bcast_S_S100000),
    unary main_arg6 main_v2 (broadcastInDim S1600000x1 ![0] bcast_S1600000_S1600000x1_0),
    ternary main_v1 main_v2 main_v0 main_v3 (fun x i u => Host.scatterAdd scatter_S100000_S1600000x1_S1600000_n_0_0_1 x i u),
    nullary main_cst_1 (constant S_ .f32 0x3F800000#32),
    TRef.unary (.of main_cst_1) main_call0.v0 id,
    TRef.unary main_call0.v0 main_call0.v1 (broadcastInDim S100000 ![] bcast_S_S100000),
    TRef.binary main_call0.v1 (.of main_v3) main_call0.v2 maximumf,
    nullary main_cst_2 (constant S_ .f32 0xBF000000#32),
    unary main_cst_2 main_v5 (broadcastInDim S100000 ![] bcast_S_S100000),
    binary main_v4 main_v5 main_v6 Host.powf,
    unary main_v6 main_v7 (broadcastInDim S100000x1 ![0] bcast_S100000_S100000x1_0),
    unary main_v7 main_v8 (broadcastInDim S100000x128 ![0, 1] bcast_S100000x1_S100000x128_0_1),
    binary main_arg0 main_v8 main_v9 mulf,
    nullary main_c (constantI S_ 32 0#32),
    unary main_c main_v10 (broadcastInDim S1600000 ![] bcast_S_S1600000),
    binary main_arg5 main_v10 main_v11 (cmpi .slt),
    nullary main_c_3 (constantI S_ 32 100000#32),
    unary main_c_3 main_v12 (broadcastInDim S1600000 ![] bcast_S_S1600000),
    binary main_arg5 main_v12 main_v13 addi,
    ternary main_v11 main_v13 main_arg5 main_v14 select,
    unary main_v14 main_v15 (broadcastInDim S1600000x1 ![0] bcast_S1600000_S1600000x1_0),
    binary main_v9 main_v15 main_v16 (fun x i => Host.gather gather_S100000x128_S1600000x1_S1600000x128_1_0_n_n_0_1_1128 x i),
    nullary main_cst_4 (constant S_ .f32 0x00000000#32),
    unary main_cst_4 main_v17 (broadcastInDim S100000x128 ![] bcast_S_S100000x128),
    unary main_arg6 main_v18 (broadcastInDim S1600000x1 ![0] bcast_S1600000_S1600000x1_0),
    ternary main_v17 main_v18 main_v16 main_v19 (fun x i u => Host.scatterAdd scatter_S100000x128_S1600000x1_S1600000x128_1_0_0_1 x i u),
    unary main_v7 main_v20 (broadcastInDim S100000x128 ![0, 1] bcast_S100000x1_S100000x128_0_1),
    binary main_v20 main_v19 main_v21 mulf,
    binary main_v21 main_arg1 main_v22 (fun l r => Host.dotGeneral dot_S100000x128_S128x128_S100000x128_1_0_0_1_n_n none l r),
    unary main_arg2 main_v23 (broadcastInDim S1x128 ![1] bcast_S128_S1x128_1),
    unary main_v23 main_v24 (broadcastInDim S100000x128 ![0, 1] bcast_S1x128_S100000x128_0_1),
    binary main_v22 main_v24 main_v25 addf,
    TRef.nullary main_call1.cst (constant S_ .f32 0x00000000#32),
    TRef.unary main_call1.cst main_call1.v0 (broadcastInDim S100000x128 ![] bcast_S_S100000x128),
    TRef.binary (.of main_v25) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v25) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v25) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v25) main_call1.v7 main_call1.call1.v0 select,
    unary main_v7 main_v27 (broadcastInDim S100000x128 ![0, 1] bcast_S100000x1_S100000x128_0_1),
    binary main_v26 main_v27 main_v28 mulf,
    nullary main_c_5 (constantI S_ 32 0#32),
    unary main_c_5 main_v29 (broadcastInDim S1600000 ![] bcast_S_S1600000),
    binary main_arg5 main_v29 main_v30 (cmpi .slt),
    nullary main_c_6 (constantI S_ 32 100000#32),
    unary main_c_6 main_v31 (broadcastInDim S1600000 ![] bcast_S_S1600000),
    binary main_arg5 main_v31 main_v32 addi,
    ternary main_v30 main_v32 main_arg5 main_v33 select,
    unary main_v33 main_v34 (broadcastInDim S1600000x1 ![0] bcast_S1600000_S1600000x1_0),
    binary main_v28 main_v34 main_v35 (fun x i => Host.gather gather_S100000x128_S1600000x1_S1600000x128_1_0_n_n_0_1_1128 x i),
    nullary main_cst_7 (constant S_ .f32 0x00000000#32),
    unary main_cst_7 main_v36 (broadcastInDim S100000x128 ![] bcast_S_S100000x128),
    unary main_arg6 main_v37 (broadcastInDim S1600000x1 ![0] bcast_S1600000_S1600000x1_0),
    ternary main_v36 main_v37 main_v35 main_v38 (fun x i u => Host.scatterAdd scatter_S100000x128_S1600000x1_S1600000x128_1_0_0_1 x i u),
    unary main_v7 main_v39 (broadcastInDim S100000x128 ![0, 1] bcast_S100000x1_S100000x128_0_1),
    binary main_v39 main_v38 main_v40 mulf,
    binary main_v40 main_arg3 main_v41 (fun l r => Host.dotGeneral dot_S100000x128_S128x64_S100000x64_1_0_0_1_n_n none l r),
    unary main_arg4 main_v42 (broadcastInDim S1x64 ![1] bcast_S64_S1x64_1),
    unary main_v42 main_v43 (broadcastInDim S100000x64 ![0, 1] bcast_S1x64_S100000x64_0_1),
    binary main_v41 main_v43 main_v44 addf ]

set_option maxRecDepth 4096 in
/-- @main is that straight line: the functions' definitions unfolded at their calls, both sides are one chain of
    host steps once sequencing is reassociated. -/
theorem main_eq (c : Dev nD) : main (F := F) c = seq ops := by
  simp only [main, fn_clip.body, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: one conjunct per operation, each the fact of its arity. -/
theorem ops_sub : (ops : List (HloOp τ sig (Elt F))).Forall fun op => op.bufs ⊆ tcRefs τ sig := by
  simp only [List.Forall, nullary_bufs_sub, unary_bufs_sub, binary_bufs_sub, ternary_bufs_sub, and_self]

end Cert.ReferenceIdeal.RefRun

end
-- ==== Proof.RefOut.lean ====
/-
  What the reference computes, as one term of its arguments: the normalisation vector of the destinations; one raw
  aggregation (gather at the sources, scatter-add at the destinations); the first dense layer with its bias; ELU as the
  library function is traced; the second propagation and dense layer with its bias. The fold of the program's operations at
  the result buffer is that term of the arguments' contents.
-/
import proofs.«136916_j18047452578202_2_alg».proof.Proof.RefRun
import proofs.«136916_j18047452578202_2_alg».proof.Proof.HostStages

noncomputable section

namespace Cert.ReferenceIdeal.RefRun

open Cert.ReferenceIdeal Cert.ReferenceIdeal.Gen Idealize.ShloMosaic Idealize.ShloMosaic.TcCoe Idealize.SL.Sem
  Idealize.ShloMosaic.StableHlo

/-! ## The result as one term of the arguments -/

/-- The edges' destination numbers, kept as a column. -/
def dstCol (a6 : IVec S1600000 32) : IVec S1600000x1 32 :=
  broadcastInDim S1600000x1 ![0] bcast_S1600000_S1600000x1_0 a6

/-- The edges' source numbers, a negative one counted from the end, kept as a column. -/
def srcCol (a5 : IVec S1600000 32) : IVec S1600000x1 32 :=
  broadcastInDim S1600000x1 ![0] bcast_S1600000_S1600000x1_0
    (select (cmpi .slt a5 (broadcastInDim S1600000 ![] bcast_S_S1600000 (constantI S_ 32 0#32)))
      (addi a5 (broadcastInDim S1600000 ![] bcast_S_S1600000 (constantI S_ 32 100000#32))) a5)

/-- The normalisation vector of the destinations. -/
def nrm (a6 : IVec S1600000 32) : FVec Ideal S100000 .f32 :=
  Cert.Sgc.nrmVec scatter_S100000_S1600000x1_S1600000_n_0_0_1_wf bcast_S_S100000 bcast_S_S1600000 (dstCol a6)

/-- It, kept as a column and spread over the 128 features. -/
def nrmMat (a6 : IVec S1600000 32) : FVec Ideal S100000x128 .f32 :=
  broadcastInDim S100000x128 ![0, 1] bcast_S100000x1_S100000x128_0_1
    (broadcastInDim S100000x1 ![0] bcast_S100000_S100000x1_0 (nrm a6))

/-- One raw aggregation of a 128-feature array. -/
def aggOf (X : FVec Ideal S100000x128 .f32) (a5 a6 : IVec S1600000 32) : FVec Ideal S100000x128 .f32 :=
  Cert.Sgc.aggArr gather_S100000x128_S1600000x1_S1600000x128_1_0_n_n_0_1_1128_wf
    scatter_S100000x128_S1600000x1_S1600000x128_1_0_0_1_wf bcast_S_S100000x128 X (srcCol a5) (dstCol a6)

/-- The first layer before ELU: the propagated features times `W₁`, plus `b₁` spread over the rows. -/
def pre1 (a0 : FVec Ideal S100000x128 .f32) (a1 : FVec Ideal S128x128 .f32) (a2 : FVec Ideal S128 .f32)
    (a5 a6 : IVec S1600000 32) : FVec Ideal S100000x128 .f32 :=
  addf (Host.dotGeneral dot_S100000x128_S128x128_S100000x128_1_0_0_1_n_n none
      (mulf (nrmMat a6) (aggOf (mulf a0 (nrmMat a6)) a5 a6)) a1)
    (broadcastInDim S100000x128 ![0, 1] bcast_S1x128_S100000x128_0_1 (broadcastInDim S1x128 ![1] bcast_S128_S1x128_1 a2))

/-- ELU of an array, as the library function is traced. -/
def eluArr (z : FVec Ideal S100000x128 .f32) : FVec Ideal S100000x128 .f32 :=
  select (cmpf .ogt z (broadcastInDim S100000x128 ![] bcast_S_S100000x128 (constant S_ .f32 0x00000000#32))) z
    (mulf (broadcastInDim S100000x128 ![] bcast_S_S100000x128 (constant S_ .f32 0x3F800000#32))
      (Host.expm1
        (select (cmpf .ogt z (broadcastInDim S100000x128 ![] bcast_S_S100000x128 (constant S_ .f32 0x00000000#32)))
          (broadcastInDim S100000x128 ![] bcast_S_S100000x128 (id (constant S_ .f32 0x00000000#32))) z)))

/-- What the reference computes from its arguments. -/
def out (a0 : FVec Ideal S100000x128 .f32) (a1 : FVec Ideal S128x128 .f32) (a2 : FVec Ideal S128 .f32)
    (a3 : FVec Ideal S128x64 .f32) (a4 : FVec Ideal S64 .f32) (a5 a6 : IVec S1600000 32) : FVec Ideal S100000x64 .f32 :=
  addf (Host.dotGeneral dot_S100000x128_S128x64_S100000x64_1_0_0_1_n_n none
      (mulf (nrmMat a6) (aggOf (mulf (eluArr (pre1 a0 a1 a2 a5 a6)) (nrmMat a6)) a5 a6)) a3)
    (broadcastInDim S100000x64 ![0, 1] bcast_S1x64_S100000x64_0_1 (broadcastInDim S1x64 ![1] bcast_S64_S1x64_1 a4))

end Cert.ReferenceIdeal.RefRun

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«136916_j18047452578202_2_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.RefValue.lean ====
/-
  The reference's result read at an entry. With `S n` the edges whose destination number is node `n`, `src e` the source row
  of edge `e` (its number, a negative one counted from the end, clamped into the array) and `ν n` the node's factor
  (in-degree clamped below at one, to the power −1/2): entry `(n, j)` of the result is
      Σ_k (ν n · Σ_{e ∈ S n} h(src e, k) · ν(src e)) · W₂[k, j] + b₂[j],
  where `h(n, k) = elu(Σ_l (ν n · Σ_{e ∈ S n} F[src e, l] · ν(src e)) · W₁[l, k] + b₁[k])`.
-/
import proofs.«136916_j18047452578202_2_alg».proof.Proof.RefOut
import proofs.«136916_j18047452578202_2_alg».proof.Proof.LibPlainDot

noncomputable section

open scoped BigOperators

namespace Cert.ReferenceIdeal.RefValue

open Cert.ReferenceIdeal Cert.ReferenceIdeal.Gen Cert.ReferenceIdeal.RefRun Cert.Sgc Idealize.ShloMosaic
  Idealize.ShloMosaic.ValueIdx Idealize.ShloMosaic.RowScatter Idealize.ShloMosaic.PlainDot

/-- The edges arriving at node `n`. -/
abbrev SE (a6 : IVec S1600000 32) (n : Fin 100000) : Finset (Fin 1600000) := inEdges (N := 100000) (dstCol a6) n

/-- The source row of edge `e`. -/
abbrev src (a5 : IVec S1600000 32) (e : Fin 1600000) : Fin 100000 := clampRow 100000 (by norm_num) (srcCol a5) e

/-- The node's normalisation factor. -/
abbrev nu (a6 : IVec S1600000 32) (n : Fin 100000) : EReal := nrmOf (SE a6) n

theorem nrm_apply (a6 : IVec S1600000 32) (n : Fin 100000) : nrm a6 (ix1 n) = nu a6 n :=
  nrmVec_apply _ _ _ (dstCol a6) n

theorem nrmMat_apply (a6 : IVec S1600000 32) (n : Fin 100000) (c : Fin 128) : nrmMat a6 (ix2 n c) = nu a6 n :=
  (Cert.Sgc.nrmMat_apply bcast_S100000_S100000x1_0 bcast_S100000x1_S100000x128_0_1 (nrm a6) n c).trans (nrm_apply a6 n)

/-- One aggregation of an array scaled by the factor column, at an entry. -/
theorem aggOf_scaled (Y : FVec Ideal S100000x128 .f32) (a5 a6 : IVec S1600000 32) (n : Fin 100000) (c : Fin 128) :
    aggOf (mulf Y (nrmMat a6)) a5 a6 (ix2 n c) = agg (SE a6) (src a5) (nu a6) (fun n c => Y (ix2 n c)) n c := by
  unfold aggOf agg
  rw [aggArr_apply _ _ _ (by norm_num : 0 < 100000)]
  exact Finset.sum_congr rfl fun e _ => by rw [mulf_apply, nrmMat_apply]

theorem dot1_eq : dot_S100000x128_S128x128_S100000x128_1_0_0_1_n_n = DotDims.plain 100000 128 128 := rfl
theorem dot2_eq : dot_S100000x128_S128x64_S100000x64_1_0_0_1_n_n = DotDims.plain 100000 128 64 := rfl

/-- The first layer before ELU, at an entry. -/
theorem pre1_apply (a0 : FVec Ideal S100000x128 .f32) (a1 : FVec Ideal S128x128 .f32) (a2 : FVec Ideal S128 .f32)
    (a5 a6 : IVec S1600000 32) (n : Fin 100000) (k : Fin 128) :
    pre1 a0 a1 a2 a5 a6 (ix2 n k)
      = ∑ l, (nu a6 n * agg (SE a6) (src a5) (nu a6) (fun n c => a0 (ix2 n c)) n l) * a1 (ix2 l k) + a2 (ix1 k) := by
  unfold pre1
  rw [addf_apply]
  refine congrArg₂ (· + ·) ?_ ?_
  · show FloatOps.dotGeneral dot_S100000x128_S128x128_S100000x128_1_0_0_1_n_n none .single _ a1 (ix2 n k) = _
    rw [dot1_eq, dotGeneral_apply_entry]
    exact Finset.sum_congr rfl fun l _ => by rw [mulf_apply, nrmMat_apply, aggOf_scaled]
  · exact (bcast_row_mat _ _ n k).trans (bcast_vec_row _ a2 0 k)

/-- ELU of an array at an entry is ELU of the entry. -/
theorem eluArr_apply (z : FVec Ideal S100000x128 .f32) (i : S100000x128.Idx) : eluArr z i = eluRef (z i) := rfl

/-- **The reference's result at entry `(n, j)`.** -/
theorem out_apply (a0 : FVec Ideal S100000x128 .f32) (a1 : FVec Ideal S128x128 .f32) (a2 : FVec Ideal S128 .f32)
    (a3 : FVec Ideal S128x64 .f32) (a4 : FVec Ideal S64 .f32) (a5 a6 : IVec S1600000 32) (n : Fin 100000) (j : Fin 64) :
    out a0 a1 a2 a3 a4 a5 a6 (ix2 n j)
      = refOut (SE a6) (src a5) (nu a6) (fun n l => a0 (ix2 n l)) (fun l k => a1 (ix2 l k)) (fun k => a2 (ix1 k))
          (fun k j => a3 (ix2 k j)) (fun j => a4 (ix1 j)) n j := by
  unfold out refOut
  rw [addf_apply]
  refine congrArg₂ (· + ·) ?_ ?_
  · show FloatOps.dotGeneral dot_S100000x128_S128x64_S100000x64_1_0_0_1_n_n none .single _ a3 (ix2 n j) = _
    rw [dot2_eq, dotGeneral_apply_entry]
    refine Finset.sum_congr rfl fun k _ => ?_
    rw [mulf_apply, nrmMat_apply, aggOf_scaled]
    have hh : (fun (n : Fin 100000) (c : Fin 128) => eluArr (pre1 a0 a1 a2 a5 a6) (ix2 n c))
        = refHidden (SE a6) (src a5) (nu a6) (fun n l => a0 (ix2 n l)) (fun l k => a1 (ix2 l k)) (fun k => a2 (ix1 k)) := by
      funext n' k'
      rw [eluArr_apply, pre1_apply]
      rfl
    rw [hh]
  · exact (bcast_row_mat _ _ n j).trans (bcast_vec_row _ a4 0 j)

end Cert.ReferenceIdeal.RefValue

end
-- ==== Proof.RefResult.lean ====
/-
  The reference's run read back. Its 71 operations are six consecutive stretches — the factor column; the first raw
  aggregation; the first dense layer; ELU; the second raw aggregation; the second dense layer — each of which, folded over
  ANY contents of the buffers, leaves its stage's term of the few buffers it reads and keeps every buffer it does not write.
  Composed, the fold of the whole line at the result buffer is the term `out` of the arguments' contents; no operation writes
  an argument; so every weakly fair execution ends with the result at `out` of the arguments and the arguments unchanged.
-/
import proofs.«136916_j18047452578202_2_alg».proof.Proof.RefOut
import proofs.«136916_j18047452578202_2_alg».proof.Proof.AfterTools

set_option Elab.async false

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

local notation "𝕍" => Valuation τ sig (Elt Ideal)

/-! ## The six stretches -/

/-- Operations 1–14: the in-degrees, their clamp, the power, the factor column. -/
abbrev seg1 : List (HloOp τ sig (Elt F)) :=
  [ nullary main_cst (constant S_ .f32 0x3F800000#32),
    unary main_cst main_v0 (broadcastInDim S1600000 ![] bcast_S_S1600000),
    nullary main_cst_0 (constant S_ .f32 0x00000000#32),
    unary main_cst_0 main_v1 (broadcastInDim S100000 ![] bcast_S_S100000),
    unary main_arg6 main_v2 (broadcastInDim S1600000x1 ![0] bcast_S1600000_S1600000x1_0),
    ternary main_v1 main_v2 main_v0 main_v3 (fun x i u => Host.scatterAdd scatter_S100000_S1600000x1_S1600000_n_0_0_1 x i u),
    nullary main_cst_1 (constant S_ .f32 0x3F800000#32),
    TRef.unary (.of main_cst_1) main_call0.v0 id,
    TRef.unary main_call0.v0 main_call0.v1 (broadcastInDim S100000 ![] bcast_S_S100000),
    TRef.binary main_call0.v1 (.of main_v3) main_call0.v2 maximumf,
    nullary main_cst_2 (constant S_ .f32 0xBF000000#32),
    unary main_cst_2 main_v5 (broadcastInDim S100000 ![] bcast_S_S100000),
    binary main_v4 main_v5 main_v6 Host.powf,
    unary main_v6 main_v7 (broadcastInDim S100000x1 ![0] bcast_S100000_S100000x1_0) ]

/-- Operations 15–29: the features scaled, the source column, the gather, the scatter-add. -/
abbrev seg2 : List (HloOp τ sig (Elt F)) :=
  [ unary main_v7 main_v8 (broadcastInDim S100000x128 ![0, 1] bcast_S100000x1_S100000x128_0_1),
    binary main_arg0 main_v8 main_v9 mulf,
    nullary main_c (constantI S_ 32 0#32),
    unary main_c main_v10 (broadcastInDim S1600000 ![] bcast_S_S1600000),
    binary main_arg5 main_v10 main_v11 (cmpi .slt),
    nullary main_c_3 (constantI S_ 32 100000#32),
    unary main_c_3 main_v12 (broadcastInDim S1600000 ![] bcast_S_S1600000),
    binary main_arg5 main_v12 main_v13 addi,
    ternary main_v11 main_v13 main_arg5 main_v14 select,
    unary main_v14 main_v15 (broadcastInDim S1600000x1 ![0] bcast_S1600000_S1600000x1_0),
    binary main_v9 main_v15 main_v16 (fun x i => Host.gather gather_S100000x128_S1600000x1_S1600000x128_1_0_n_n_0_1_1128 x i),
    nullary main_cst_4 (constant S_ .f32 0x00000000#32),
    unary main_cst_4 main_v17 (broadcastInDim S100000x128 ![] bcast_S_S100000x128),
    unary main_arg6 main_v18 (broadcastInDim S1600000x1 ![0] bcast_S1600000_S1600000x1_0),
    ternary main_v17 main_v18 main_v16 main_v19 (fun x i u => Host.scatterAdd scatter_S100000x128_S1600000x1_S1600000x128_1_0_0_1 x i u) ]

/-- Operations 30–35: the aggregation scaled, times `W₁`, plus `b₁`. -/
abbrev seg3 : List (HloOp τ sig (Elt F)) :=
  [ unary main_v7 main_v20 (broadcastInDim S100000x128 ![0, 1] bcast_S100000x1_S100000x128_0_1),
    binary main_v20 main_v19 main_v21 mulf,
    binary main_v21 main_arg1 main_v22 (fun l r => Host.dotGeneral dot_S100000x128_S128x128_S100000x128_1_0_0_1_n_n none l r),
    unary main_arg2 main_v23 (broadcastInDim S1x128 ![1] bcast_S128_S1x128_1),
    unary main_v23 main_v24 (broadcastInDim S100000x128 ![0, 1] bcast_S1x128_S100000x128_0_1),
    binary main_v22 main_v24 main_v25 addf ]

/-- Operations 36–50: ELU. -/
abbrev seg4 : List (HloOp τ sig (Elt F)) :=
  [ TRef.nullary main_call1.cst (constant S_ .f32 0x00000000#32),
    TRef.unary main_call1.cst main_call1.v0 (broadcastInDim S100000x128 ![] bcast_S_S100000x128),
    TRef.binary (.of main_v25) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v25) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v25) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v25) main_call1.v7 main_call1.call1.v0 select ]

/-- Operations 51–65: the hidden layer scaled, the source column, the gather, the scatter-add. -/
abbrev seg5 : List (HloOp τ sig (Elt F)) :=
  [ unary main_v7 main_v27 (broadcastInDim S100000x128 ![0, 1] bcast_S100000x1_S100000x128_0_1),
    binary main_v26 main_v27 main_v28 mulf,
    nullary main_c_5 (constantI S_ 32 0#32),
    unary main_c_5 main_v29 (broadcastInDim S1600000 ![] bcast_S_S1600000),
    binary main_arg5 main_v29 main_v30 (cmpi .slt),
    nullary main_c_6 (constantI S_ 32 100000#32),
    unary main_c_6 main_v31 (broadcastInDim S1600000 ![] bcast_S_S1600000),
    binary main_arg5 main_v31 main_v32 addi,
    ternary main_v30 main_v32 main_arg5 main_v33 select,
    unary main_v33 main_v34 (broadcastInDim S1600000x1 ![0] bcast_S1600000_S1600000x1_0),
    binary main_v28 main_v34 main_v35 (fun x i => Host.gather gather_S100000x128_S1600000x1_S1600000x128_1_0_n_n_0_1_1128 x i),
    nullary main_cst_7 (constant S_ .f32 0x00000000#32),
    unary main_cst_7 main_v36 (broadcastInDim S100000x128 ![] bcast_S_S100000x128),
    unary main_arg6 main_v37 (broadcastInDim S1600000x1 ![0] bcast_S1600000_S1600000x1_0),
    ternary main_v36 main_v37 main_v35 main_v38 (fun x i u => Host.scatterAdd scatter_S100000x128_S1600000x1_S1600000x128_1_0_0_1 x i u) ]

/-- Operations 66–71: the aggregation scaled, times `W₂`, plus `b₂`. -/
abbrev seg6 : List (HloOp τ sig (Elt F)) :=
  [ unary main_v7 main_v39 (broadcastInDim S100000x128 ![0, 1] bcast_S100000x1_S100000x128_0_1),
    binary main_v39 main_v38 main_v40 mulf,
    binary main_v40 main_arg3 main_v41 (fun l r => Host.dotGeneral dot_S100000x128_S128x64_S100000x64_1_0_0_1_n_n none l r),
    unary main_arg4 main_v42 (broadcastInDim S1x64 ![1] bcast_S64_S1x64_1),
    unary main_v42 main_v43 (broadcastInDim S100000x64 ![0, 1] bcast_S1x64_S100000x64_0_1),
    binary main_v41 main_v43 main_v44 addf ]

/-- The line is its six stretches in order. -/
theorem ops_split : (ops : List (HloOp τ sig (Elt F))) = seg1 ++ (seg2 ++ (seg3 ++ (seg4 ++ (seg5 ++ seg6)))) := rfl

/-! ## What each stretch leaves -/

/-- The factor vector kept as a column. -/
def nrmCol (a6 : IVec S1600000 32) : FVec Ideal S100000x1 .f32 :=
  broadcastInDim S100000x1 ![0] bcast_S100000_S100000x1_0 (nrm a6)

/-- A factor column spread over the 128 features. -/
def spread (ncol : FVec Ideal S100000x1 .f32) : FVec Ideal S100000x128 .f32 :=
  broadcastInDim S100000x128 ![0, 1] bcast_S100000x1_S100000x128_0_1 ncol

/-! ### The first stretch in three: in-degrees, clamp, power -/

abbrev s1a : List (HloOp τ sig (Elt F)) :=
  [ nullary main_cst (constant S_ .f32 0x3F800000#32),
    unary main_cst main_v0 (broadcastInDim S1600000 ![] bcast_S_S1600000),
    nullary main_cst_0 (constant S_ .f32 0x00000000#32),
    unary main_cst_0 main_v1 (broadcastInDim S100000 ![] bcast_S_S100000),
    unary main_arg6 main_v2 (broadcastInDim S1600000x1 ![0] bcast_S1600000_S1600000x1_0),
    ternary main_v1 main_v2 main_v0 main_v3 (fun x i u => Host.scatterAdd scatter_S100000_S1600000x1_S1600000_n_0_0_1 x i u),
    nullary main_cst_1 (constant S_ .f32 0x3F800000#32) ]

abbrev s1b : List (HloOp τ sig (Elt F)) :=
  [ TRef.unary (.of main_cst_1) main_call0.v0 id,
    TRef.unary main_call0.v0 main_call0.v1 (broadcastInDim S100000 ![] bcast_S_S100000),
    TRef.binary main_call0.v1 (.of main_v3) main_call0.v2 maximumf ]

abbrev s1c : List (HloOp τ sig (Elt F)) :=
  [ nullary main_cst_2 (constant S_ .f32 0xBF000000#32),
    unary main_cst_2 main_v5 (broadcastInDim S100000 ![] bcast_S_S100000),
    binary main_v4 main_v5 main_v6 Host.powf,
    unary main_v6 main_v7 (broadcastInDim S100000x1 ![0] bcast_S100000_S100000x1_0) ]

theorem seg1_split : (seg1 : List (HloOp τ sig (Elt F))) = s1a ++ (s1b ++ s1c) := rfl

attribute [local irreducible] Host.scatterAdd in
set_option maxRecDepth 16384 in
set_option maxHeartbeats 2000000 in
theorem s1a_v3 (W : 𝕍) : after (s1a (F := Ideal)) W (Proc.devRef .tc main_v3)
    = Host.scatterAdd scatter_S100000_S1600000x1_S1600000_n_0_0_1
        (broadcastInDim S100000 ![] bcast_S_S100000 (constant (F := Ideal) S_ .f32 0x00000000#32))
        (dstCol (W (Proc.devRef .tc main_arg6)))
        (broadcastInDim S1600000 ![] bcast_S_S1600000 (constant (F := Ideal) S_ .f32 0x3F800000#32)) := by
  after_results
  all_goals rfl

attribute [local irreducible] Host.scatterAdd in
set_option maxRecDepth 16384 in
set_option maxHeartbeats 2000000 in
theorem s1a_cst_1 (W : 𝕍) : after (s1a (F := Ideal)) W (Proc.devRef .tc main_cst_1)
    = constant (F := Ideal) S_ .f32 0x3F800000#32 := by
  after_results
  all_goals rfl

set_option maxRecDepth 16384 in
set_option maxHeartbeats 2000000 in
theorem s1b_v4 (W : 𝕍) : after (s1b (F := Ideal)) W (Proc.devRef .tc main_v4)
    = (maximumf (broadcastInDim S100000 ![] bcast_S_S100000 (id (W (Proc.devRef .tc main_cst_1) : FVec Ideal S_ .f32)))
        (W (Proc.devRef .tc main_v3) : FVec Ideal S100000 .f32) : FVec Ideal S100000 .f32) := by
  after_results
  all_goals rfl

attribute [local irreducible] Host.powf in
set_option maxRecDepth 16384 in
set_option maxHeartbeats 2000000 in
theorem s1c_v7 (W : 𝕍) : after (s1c (F := Ideal)) W (Proc.devRef .tc main_v7)
    = broadcastInDim S100000x1 ![0] bcast_S100000_S100000x1_0
        (Host.powf (W (Proc.devRef .tc main_v4) : FVec Ideal S100000 .f32)
          (broadcastInDim S100000 ![] bcast_S_S100000 (constant (F := Ideal) S_ .f32 0xBF000000#32))) := by
  after_results
  all_goals rfl

attribute [local irreducible] Host.scatterAdd Host.powf in
set_option maxRecDepth 16384 in
set_option maxHeartbeats 2000000 in
theorem seg1_v7 (W : 𝕍) : after (seg1 (F := Ideal)) W (Proc.devRef .tc main_v7) = nrmCol (W (Proc.devRef .tc main_arg6)) := by
  rw [seg1_split, after_append, after_append, s1c_v7, s1b_v4, s1a_v3, s1a_cst_1]
  rfl

/-! ### The second stretch in three: scale, source column, gather and scatter-add -/

abbrev s2a : List (HloOp τ sig (Elt F)) :=
  [ unary main_v7 main_v8 (broadcastInDim S100000x128 ![0, 1] bcast_S100000x1_S100000x128_0_1),
    binary main_arg0 main_v8 main_v9 mulf ]

abbrev s2b : List (HloOp τ sig (Elt F)) :=
  [ nullary main_c (constantI S_ 32 0#32),
    unary main_c main_v10 (broadcastInDim S1600000 ![] bcast_S_S1600000),
    binary main_arg5 main_v10 main_v11 (cmpi .slt),
    nullary main_c_3 (constantI S_ 32 100000#32),
    unary main_c_3 main_v12 (broadcastInDim S1600000 ![] bcast_S_S1600000),
    binary main_arg5 main_v12 main_v13 addi,
    ternary main_v11 main_v13 main_arg5 main_v14 select,
    unary main_v14 main_v15 (broadcastInDim S1600000x1 ![0] bcast_S1600000_S1600000x1_0) ]

abbrev s2c : List (HloOp τ sig (Elt F)) :=
  [ binary main_v9 main_v15 main_v16 (fun x i => Host.gather gather_S100000x128_S1600000x1_S1600000x128_1_0_n_n_0_1_1128 x i),
    nullary main_cst_4 (constant S_ .f32 0x00000000#32),
    unary main_cst_4 main_v17 (broadcastInDim S100000x128 ![] bcast_S_S100000x128),
    unary main_arg6 main_v18 (broadcastInDim S1600000x1 ![0] bcast_S1600000_S1600000x1_0),
    ternary main_v17 main_v18 main_v16 main_v19 (fun x i u => Host.scatterAdd scatter_S100000x128_S1600000x1_S1600000x128_1_0_0_1 x i u) ]

theorem seg2_split : (seg2 : List (HloOp τ sig (Elt F))) = s2a ++ (s2b ++ s2c) := rfl

set_option maxRecDepth 16384 in
set_option maxHeartbeats 2000000 in
theorem s2a_v9 (W : 𝕍) : after (s2a (F := Ideal)) W (Proc.devRef .tc main_v9)
    = mulf (W (Proc.devRef .tc main_arg0) : FVec Ideal S100000x128 .f32) (spread (W (Proc.devRef .tc main_v7))) := by
  after_results
  all_goals rfl

set_option maxRecDepth 16384 in
set_option maxHeartbeats 2000000 in
theorem s2b_v15 (W : 𝕍) : after (s2b (F := Ideal)) W (Proc.devRef .tc main_v15) = srcCol (W (Proc.devRef .tc main_arg5)) := by
  after_results
  all_goals rfl

attribute [local irreducible] Host.gather Host.scatterAdd in
set_option maxRecDepth 16384 in
set_option maxHeartbeats 2000000 in
theorem s2c_v19 (W : 𝕍) : after (s2c (F := Ideal)) W (Proc.devRef .tc main_v19)
    = Host.scatterAdd scatter_S100000x128_S1600000x1_S1600000x128_1_0_0_1
        (broadcastInDim S100000x128 ![] bcast_S_S100000x128 (constant (F := Ideal) S_ .f32 0x00000000#32))
        (dstCol (W (Proc.devRef .tc main_arg6)))
        (Host.gather gather_S100000x128_S1600000x1_S1600000x128_1_0_n_n_0_1_1128
          (W (Proc.devRef .tc main_v9) : FVec Ideal S100000x128 .f32) (W (Proc.devRef .tc main_v15) : IVec S1600000x1 32)) := by
  after_results
  all_goals rfl

theorem s2b_keeps_v9 (W : 𝕍) : after (s2b (F := Ideal)) W (Proc.devRef .tc main_v9) = W (Proc.devRef .tc main_v9) := by after_keeps s2b
theorem s2b_keeps_arg6 (W : 𝕍) : after (s2b (F := Ideal)) W (Proc.devRef .tc main_arg6) = W (Proc.devRef .tc main_arg6) := by after_keeps s2b
theorem s2a_keeps_arg6 (W : 𝕍) : after (s2a (F := Ideal)) W (Proc.devRef .tc main_arg6) = W (Proc.devRef .tc main_arg6) := by after_keeps s2a
theorem s2a_keeps_arg5 (W : 𝕍) : after (s2a (F := Ideal)) W (Proc.devRef .tc main_arg5) = W (Proc.devRef .tc main_arg5) := by after_keeps s2a

attribute [local irreducible] Host.gather Host.scatterAdd in
set_option maxRecDepth 16384 in
set_option maxHeartbeats 2000000 in
theorem seg2_v19 (W : 𝕍) : after (seg2 (F := Ideal)) W (Proc.devRef .tc main_v19)
    = aggOf (mulf (W (Proc.devRef .tc main_arg0) : FVec Ideal S100000x128 .f32) (spread (W (Proc.devRef .tc main_v7))))
        (W (Proc.devRef .tc main_arg5)) (W (Proc.devRef .tc main_arg6)) := by
  rw [seg2_split, after_append, after_append, s2c_v19, s2b_v15, s2b_keeps_v9, s2b_keeps_arg6, s2a_v9, s2a_keeps_arg6,
    s2a_keeps_arg5]
  rfl

/-! ### The third stretch -/

set_option maxRecDepth 16384 in
set_option maxHeartbeats 2000000 in
theorem seg3_v25 (W : 𝕍) : after (seg3 (F := Ideal)) W (Proc.devRef .tc main_v25)
    = addf (Host.dotGeneral (φ₁ := .f32) (φ₂ := .f32) dot_S100000x128_S128x128_S100000x128_1_0_0_1_n_n none
          (mulf (spread (W (Proc.devRef .tc main_v7))) (W (Proc.devRef .tc main_v19) : FVec Ideal S100000x128 .f32)) (W (Proc.devRef .tc main_arg1) : FVec Ideal S128x128 .f32))
        (broadcastInDim S100000x128 ![0, 1] bcast_S1x128_S100000x128_0_1
          (broadcastInDim S1x128 ![1] bcast_S128_S1x128_1 (W (Proc.devRef .tc main_arg2) : FVec Ideal S128 .f32))) := by
  after_results
  all_goals rfl

/-! ### ELU in three: the two comparisons, the inner select and `exp − 1`, the outer select -/

abbrev s4a : List (HloOp τ sig (Elt F)) :=
  [ TRef.nullary main_call1.cst (constant S_ .f32 0x00000000#32),
    TRef.unary main_call1.cst main_call1.v0 (broadcastInDim S100000x128 ![] bcast_S_S100000x128),
    TRef.binary (.of main_v25) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v25) main_call1.v2 main_call1.v3 (cmpf .ogt) ]

abbrev s4b : List (HloOp τ sig (Elt F)) :=
  [ TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v25) main_call1.call0.v2 select,
    TRef.unary main_call1.call0.v2 main_call1.v5 Host.expm1 ]

abbrev s4c : List (HloOp τ sig (Elt F)) :=
  [ TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v25) main_call1.v7 main_call1.call1.v0 select ]

theorem seg4_split : (seg4 : List (HloOp τ sig (Elt F))) = s4a ++ (s4b ++ s4c) := rfl

/-- The comparison of an array with zero, entry by entry. -/
def posArr (z : FVec Ideal S100000x128 .f32) : IVec S100000x128 1 :=
  cmpf .ogt z (broadcastInDim S100000x128 ![] bcast_S_S100000x128 (constant S_ .f32 0x00000000#32))

set_option maxRecDepth 16384 in
set_option maxHeartbeats 2000000 in
theorem s4a_v1 (W : 𝕍) : after (s4a (F := Ideal)) W (Proc.devRef .tc main_call1_v1) = posArr (W (Proc.devRef .tc main_v25)) := by
  after_results
  all_goals rfl

set_option maxRecDepth 16384 in
set_option maxHeartbeats 2000000 in
theorem s4a_v3 (W : 𝕍) : after (s4a (F := Ideal)) W (Proc.devRef .tc main_call1_v3) = posArr (W (Proc.devRef .tc main_v25)) := by
  after_results
  all_goals rfl

attribute [local irreducible] Host.expm1 in
set_option maxRecDepth 16384 in
set_option maxHeartbeats 2000000 in
theorem s4b_v5 (W : 𝕍) : after (s4b (F := Ideal)) W (Proc.devRef .tc main_call1_v5)
    = Host.expm1 (select (W (Proc.devRef .tc main_call1_v3) : IVec S100000x128 1)
        (broadcastInDim S100000x128 ![] bcast_S_S100000x128 (id (constant (F := Ideal) S_ .f32 0x00000000#32)))
        (W (Proc.devRef .tc main_v25) : FVec Ideal S100000x128 .f32)) := by
  after_results
  all_goals rfl

set_option maxRecDepth 16384 in
set_option maxHeartbeats 2000000 in
theorem s4c_v26 (W : 𝕍) : after (s4c (F := Ideal)) W (Proc.devRef .tc main_v26)
    = select (W (Proc.devRef .tc main_call1_v1) : IVec S100000x128 1) (W (Proc.devRef .tc main_v25) : FVec Ideal S100000x128 .f32)
        (mulf (broadcastInDim S100000x128 ![] bcast_S_S100000x128 (constant (F := Ideal) S_ .f32 0x3F800000#32))
          (W (Proc.devRef .tc main_call1_v5) : FVec Ideal S100000x128 .f32)) := by
  after_results
  all_goals rfl

theorem s4a_keeps_v25 (W : 𝕍) : after (s4a (F := Ideal)) W (Proc.devRef .tc main_v25) = W (Proc.devRef .tc main_v25) := by after_keeps s4a
theorem s4b_keeps_v25 (W : 𝕍) : after (s4b (F := Ideal)) W (Proc.devRef .tc main_v25) = W (Proc.devRef .tc main_v25) := by after_keeps s4b
theorem s4b_keeps_v1 (W : 𝕍) : after (s4b (F := Ideal)) W (Proc.devRef .tc main_call1_v1) = W (Proc.devRef .tc main_call1_v1) := by after_keeps s4b

attribute [local irreducible] Host.expm1 in
set_option maxRecDepth 16384 in
set_option maxHeartbeats 2000000 in
theorem seg4_v26 (W : 𝕍) : after (seg4 (F := Ideal)) W (Proc.devRef .tc main_v26) = eluArr (W (Proc.devRef .tc main_v25)) := by
  rw [seg4_split, after_append, after_append, s4c_v26, s4b_v5, s4b_keeps_v1, s4b_keeps_v25, s4a_v1, s4a_v3, s4a_keeps_v25]
  rfl

/-! ### The fifth stretch in three, as the second -/

abbrev s5a : List (HloOp τ sig (Elt F)) :=
  [ unary main_v7 main_v27 (broadcastInDim S100000x128 ![0, 1] bcast_S100000x1_S100000x128_0_1),
    binary main_v26 main_v27 main_v28 mulf ]

abbrev s5b : List (HloOp τ sig (Elt F)) :=
  [ nullary main_c_5 (constantI S_ 32 0#32),
    unary main_c_5 main_v29 (broadcastInDim S1600000 ![] bcast_S_S1600000),
    binary main_arg5 main_v29 main_v30 (cmpi .slt),
    nullary main_c_6 (constantI S_ 32 100000#32),
    unary main_c_6 main_v31 (broadcastInDim S1600000 ![] bcast_S_S1600000),
    binary main_arg5 main_v31 main_v32 addi,
    ternary main_v30 main_v32 main_arg5 main_v33 select,
    unary main_v33 main_v34 (broadcastInDim S1600000x1 ![0] bcast_S1600000_S1600000x1_0) ]

abbrev s5c : List (HloOp τ sig (Elt F)) :=
  [ binary main_v28 main_v34 main_v35 (fun x i => Host.gather gather_S100000x128_S1600000x1_S1600000x128_1_0_n_n_0_1_1128 x i),
    nullary main_cst_7 (constant S_ .f32 0x00000000#32),
    unary main_cst_7 main_v36 (broadcastInDim S100000x128 ![] bcast_S_S100000x128),
    unary main_arg6 main_v37 (broadcastInDim S1600000x1 ![0] bcast_S1600000_S1600000x1_0),
    ternary main_v36 main_v37 main_v35 main_v38 (fun x i u => Host.scatterAdd scatter_S100000x128_S1600000x1_S1600000x128_1_0_0_1 x i u) ]

theorem seg5_split : (seg5 : List (HloOp τ sig (Elt F))) = s5a ++ (s5b ++ s5c) := rfl

set_option maxRecDepth 16384 in
set_option maxHeartbeats 2000000 in
theorem s5a_v28 (W : 𝕍) : after (s5a (F := Ideal)) W (Proc.devRef .tc main_v28)
    = mulf (W (Proc.devRef .tc main_v26) : FVec Ideal S100000x128 .f32) (spread (W (Proc.devRef .tc main_v7))) := by
  after_results
  all_goals rfl

set_option maxRecDepth 16384 in
set_option maxHeartbeats 2000000 in
theorem s5b_v34 (W : 𝕍) : after (s5b (F := Ideal)) W (Proc.devRef .tc main_v34) = srcCol (W (Proc.devRef .tc main_arg5)) := by
  after_results
  all_goals rfl

attribute [local irreducible] Host.gather Host.scatterAdd in
set_option maxRecDepth 16384 in
set_option maxHeartbeats 2000000 in
theorem s5c_v38 (W : 𝕍) : after (s5c (F := Ideal)) W (Proc.devRef .tc main_v38)
    = Host.scatterAdd scatter_S100000x128_S1600000x1_S1600000x128_1_0_0_1
        (broadcastInDim S100000x128 ![] bcast_S_S100000x128 (constant (F := Ideal) S_ .f32 0x00000000#32))
        (dstCol (W (Proc.devRef .tc main_arg6)))
        (Host.gather gather_S100000x128_S1600000x1_S1600000x128_1_0_n_n_0_1_1128
          (W (Proc.devRef .tc main_v28) : FVec Ideal S100000x128 .f32) (W (Proc.devRef .tc main_v34) : IVec S1600000x1 32)) := by
  after_results
  all_goals rfl

theorem s5b_keeps_v28 (W : 𝕍) : after (s5b (F := Ideal)) W (Proc.devRef .tc main_v28) = W (Proc.devRef .tc main_v28) := by after_keeps s5b
theorem s5b_keeps_arg6 (W : 𝕍) : after (s5b (F := Ideal)) W (Proc.devRef .tc main_arg6) = W (Proc.devRef .tc main_arg6) := by after_keeps s5b
theorem s5a_keeps_arg6 (W : 𝕍) : after (s5a (F := Ideal)) W (Proc.devRef .tc main_arg6) = W (Proc.devRef .tc main_arg6) := by after_keeps s5a
theorem s5a_keeps_arg5 (W : 𝕍) : after (s5a (F := Ideal)) W (Proc.devRef .tc main_arg5) = W (Proc.devRef .tc main_arg5) := by after_keeps s5a

attribute [local irreducible] Host.gather Host.scatterAdd in
set_option maxRecDepth 16384 in
set_option maxHeartbeats 2000000 in
theorem seg5_v38 (W : 𝕍) : after (seg5 (F := Ideal)) W (Proc.devRef .tc main_v38)
    = aggOf (mulf (W (Proc.devRef .tc main_v26) : FVec Ideal S100000x128 .f32) (spread (W (Proc.devRef .tc main_v7))))
        (W (Proc.devRef .tc main_arg5)) (W (Proc.devRef .tc main_arg6)) := by
  rw [seg5_split, after_append, after_append, s5c_v38, s5b_v34, s5b_keeps_v28, s5b_keeps_arg6, s5a_v28, s5a_keeps_arg6,
    s5a_keeps_arg5]
  rfl

/-! ### The sixth stretch -/

set_option maxRecDepth 16384 in
set_option maxHeartbeats 2000000 in
theorem seg6_v44 (W : 𝕍) : after (seg6 (F := Ideal)) W (Proc.devRef .tc main_v44)
    = addf (Host.dotGeneral (φ₁ := .f32) (φ₂ := .f32) dot_S100000x128_S128x64_S100000x64_1_0_0_1_n_n none
          (mulf (spread (W (Proc.devRef .tc main_v7))) (W (Proc.devRef .tc main_v38) : FVec Ideal S100000x128 .f32)) (W (Proc.devRef .tc main_arg3) : FVec Ideal S128x64 .f32))
        (broadcastInDim S100000x64 ![0, 1] bcast_S1x64_S100000x64_0_1
          (broadcastInDim S1x64 ![1] bcast_S64_S1x64_1 (W (Proc.devRef .tc main_arg4) : FVec Ideal S64 .f32))) := by
  after_results
  all_goals rfl

/-! ## What each stretch keeps

A buffer that no operation of a stretch writes has the same contents after it. Listed: the factor column and the arguments,
through the stretches between the one that writes (or first reads) them and the one that reads them last. -/

theorem k1_arg0 (W : 𝕍) : after (seg1 (F := Ideal)) W (Proc.devRef .tc main_arg0) = W (Proc.devRef .tc main_arg0) := by after_keeps seg1
theorem k1_arg1 (W : 𝕍) : after (seg1 (F := Ideal)) W (Proc.devRef .tc main_arg1) = W (Proc.devRef .tc main_arg1) := by after_keeps seg1
theorem k1_arg2 (W : 𝕍) : after (seg1 (F := Ideal)) W (Proc.devRef .tc main_arg2) = W (Proc.devRef .tc main_arg2) := by after_keeps seg1
theorem k1_arg3 (W : 𝕍) : after (seg1 (F := Ideal)) W (Proc.devRef .tc main_arg3) = W (Proc.devRef .tc main_arg3) := by after_keeps seg1
theorem k1_arg4 (W : 𝕍) : after (seg1 (F := Ideal)) W (Proc.devRef .tc main_arg4) = W (Proc.devRef .tc main_arg4) := by after_keeps seg1
theorem k1_arg5 (W : 𝕍) : after (seg1 (F := Ideal)) W (Proc.devRef .tc main_arg5) = W (Proc.devRef .tc main_arg5) := by after_keeps seg1
theorem k1_arg6 (W : 𝕍) : after (seg1 (F := Ideal)) W (Proc.devRef .tc main_arg6) = W (Proc.devRef .tc main_arg6) := by after_keeps seg1

theorem k2_v7 (W : 𝕍) : after (seg2 (F := Ideal)) W (Proc.devRef .tc main_v7) = W (Proc.devRef .tc main_v7) := by after_keeps seg2
theorem k2_arg1 (W : 𝕍) : after (seg2 (F := Ideal)) W (Proc.devRef .tc main_arg1) = W (Proc.devRef .tc main_arg1) := by after_keeps seg2
theorem k2_arg2 (W : 𝕍) : after (seg2 (F := Ideal)) W (Proc.devRef .tc main_arg2) = W (Proc.devRef .tc main_arg2) := by after_keeps seg2
theorem k2_arg3 (W : 𝕍) : after (seg2 (F := Ideal)) W (Proc.devRef .tc main_arg3) = W (Proc.devRef .tc main_arg3) := by after_keeps seg2
theorem k2_arg4 (W : 𝕍) : after (seg2 (F := Ideal)) W (Proc.devRef .tc main_arg4) = W (Proc.devRef .tc main_arg4) := by after_keeps seg2
theorem k2_arg5 (W : 𝕍) : after (seg2 (F := Ideal)) W (Proc.devRef .tc main_arg5) = W (Proc.devRef .tc main_arg5) := by after_keeps seg2
theorem k2_arg6 (W : 𝕍) : after (seg2 (F := Ideal)) W (Proc.devRef .tc main_arg6) = W (Proc.devRef .tc main_arg6) := by after_keeps seg2

theorem k3_v7 (W : 𝕍) : after (seg3 (F := Ideal)) W (Proc.devRef .tc main_v7) = W (Proc.devRef .tc main_v7) := by after_keeps seg3
theorem k3_arg3 (W : 𝕍) : after (seg3 (F := Ideal)) W (Proc.devRef .tc main_arg3) = W (Proc.devRef .tc main_arg3) := by after_keeps seg3
theorem k3_arg4 (W : 𝕍) : after (seg3 (F := Ideal)) W (Proc.devRef .tc main_arg4) = W (Proc.devRef .tc main_arg4) := by after_keeps seg3
theorem k3_arg5 (W : 𝕍) : after (seg3 (F := Ideal)) W (Proc.devRef .tc main_arg5) = W (Proc.devRef .tc main_arg5) := by after_keeps seg3
theorem k3_arg6 (W : 𝕍) : after (seg3 (F := Ideal)) W (Proc.devRef .tc main_arg6) = W (Proc.devRef .tc main_arg6) := by after_keeps seg3

theorem k4_v7 (W : 𝕍) : after (seg4 (F := Ideal)) W (Proc.devRef .tc main_v7) = W (Proc.devRef .tc main_v7) := by after_keeps seg4
theorem k4_arg3 (W : 𝕍) : after (seg4 (F := Ideal)) W (Proc.devRef .tc main_arg3) = W (Proc.devRef .tc main_arg3) := by after_keeps seg4
theorem k4_arg4 (W : 𝕍) : after (seg4 (F := Ideal)) W (Proc.devRef .tc main_arg4) = W (Proc.devRef .tc main_arg4) := by after_keeps seg4
theorem k4_arg5 (W : 𝕍) : after (seg4 (F := Ideal)) W (Proc.devRef .tc main_arg5) = W (Proc.devRef .tc main_arg5) := by after_keeps seg4
theorem k4_arg6 (W : 𝕍) : after (seg4 (F := Ideal)) W (Proc.devRef .tc main_arg6) = W (Proc.devRef .tc main_arg6) := by after_keeps seg4

theorem k5_v7 (W : 𝕍) : after (seg5 (F := Ideal)) W (Proc.devRef .tc main_v7) = W (Proc.devRef .tc main_v7) := by after_keeps seg5
theorem k5_arg3 (W : 𝕍) : after (seg5 (F := Ideal)) W (Proc.devRef .tc main_arg3) = W (Proc.devRef .tc main_arg3) := by after_keeps seg5
theorem k5_arg4 (W : 𝕍) : after (seg5 (F := Ideal)) W (Proc.devRef .tc main_arg4) = W (Proc.devRef .tc main_arg4) := by after_keeps seg5

end Cert.ReferenceIdeal.RefRun

end
-- ==== Proof.RefWhole.lean ====
/-
  The reference's whole line read back from its six stretches: the fold of the 71 operations at the result buffer is the
  term `out` of the arguments' contents; no operation writes an argument; so every weakly fair execution ends with the result
  at `out` of the arguments and the arguments unchanged.
-/
import proofs.«136916_j18047452578202_2_alg».proof.Proof.RefResult

set_option Elab.async false

noncomputable section

namespace Cert.ReferenceIdeal.RefRun

open Cert.ReferenceIdeal Cert.ReferenceIdeal.Gen Idealize.ShloMosaic Idealize.ShloMosaic.TcCoe Idealize.SL.Sem
  Idealize.ShloMosaic.StableHlo

local notation "𝕍" => Valuation τ sig (Elt Ideal)

/-! ## What the last stretches keep of the arguments

(The frame facts of the earlier stretches are beside the stretches; these are the ones only the "arguments unchanged" part
needs.) -/

theorem k2_arg0 (W : 𝕍) : after (seg2 (F := Ideal)) W (Proc.devRef .tc main_arg0) = W (Proc.devRef .tc main_arg0) := by after_keeps seg2
theorem k3_arg0 (W : 𝕍) : after (seg3 (F := Ideal)) W (Proc.devRef .tc main_arg0) = W (Proc.devRef .tc main_arg0) := by after_keeps seg3
theorem k3_arg1 (W : 𝕍) : after (seg3 (F := Ideal)) W (Proc.devRef .tc main_arg1) = W (Proc.devRef .tc main_arg1) := by after_keeps seg3
theorem k3_arg2 (W : 𝕍) : after (seg3 (F := Ideal)) W (Proc.devRef .tc main_arg2) = W (Proc.devRef .tc main_arg2) := by after_keeps seg3
theorem k4_arg0 (W : 𝕍) : after (seg4 (F := Ideal)) W (Proc.devRef .tc main_arg0) = W (Proc.devRef .tc main_arg0) := by after_keeps seg4
theorem k4_arg1 (W : 𝕍) : after (seg4 (F := Ideal)) W (Proc.devRef .tc main_arg1) = W (Proc.devRef .tc main_arg1) := by after_keeps seg4
theorem k4_arg2 (W : 𝕍) : after (seg4 (F := Ideal)) W (Proc.devRef .tc main_arg2) = W (Proc.devRef .tc main_arg2) := by after_keeps seg4
theorem k5_arg0 (W : 𝕍) : after (seg5 (F := Ideal)) W (Proc.devRef .tc main_arg0) = W (Proc.devRef .tc main_arg0) := by after_keeps seg5
theorem k5_arg1 (W : 𝕍) : after (seg5 (F := Ideal)) W (Proc.devRef .tc main_arg1) = W (Proc.devRef .tc main_arg1) := by after_keeps seg5
theorem k5_arg2 (W : 𝕍) : after (seg5 (F := Ideal)) W (Proc.devRef .tc main_arg2) = W (Proc.devRef .tc main_arg2) := by after_keeps seg5
theorem k5_arg5 (W : 𝕍) : after (seg5 (F := Ideal)) W (Proc.devRef .tc main_arg5) = W (Proc.devRef .tc main_arg5) := by after_keeps seg5
theorem k5_arg6 (W : 𝕍) : after (seg5 (F := Ideal)) W (Proc.devRef .tc main_arg6) = W (Proc.devRef .tc main_arg6) := by after_keeps seg5
theorem k6_arg0 (W : 𝕍) : after (seg6 (F := Ideal)) W (Proc.devRef .tc main_arg0) = W (Proc.devRef .tc main_arg0) := by after_keeps seg6
theorem k6_arg1 (W : 𝕍) : after (seg6 (F := Ideal)) W (Proc.devRef .tc main_arg1) = W (Proc.devRef .tc main_arg1) := by after_keeps seg6
theorem k6_arg2 (W : 𝕍) : after (seg6 (F := Ideal)) W (Proc.devRef .tc main_arg2) = W (Proc.devRef .tc main_arg2) := by after_keeps seg6
theorem k6_arg3 (W : 𝕍) : after (seg6 (F := Ideal)) W (Proc.devRef .tc main_arg3) = W (Proc.devRef .tc main_arg3) := by after_keeps seg6
theorem k6_arg4 (W : 𝕍) : after (seg6 (F := Ideal)) W (Proc.devRef .tc main_arg4) = W (Proc.devRef .tc main_arg4) := by after_keeps seg6
theorem k6_arg5 (W : 𝕍) : after (seg6 (F := Ideal)) W (Proc.devRef .tc main_arg5) = W (Proc.devRef .tc main_arg5) := by after_keeps seg6
theorem k6_arg6 (W : 𝕍) : after (seg6 (F := Ideal)) W (Proc.devRef .tc main_arg6) = W (Proc.devRef .tc main_arg6) := by after_keeps seg6

/-! ## The whole line -/

/-- No operation writes an argument: stretch by stretch. -/
theorem arg0_eq (V : 𝕍) : after (ops (F := Ideal)) V (Proc.devRef .tc main_arg0) = V (Proc.devRef .tc main_arg0) := by
  rw [ops_split, after_append, after_append, after_append, after_append, after_append, k6_arg0, k5_arg0, k4_arg0, k3_arg0,
    k2_arg0, k1_arg0]
theorem arg1_eq (V : 𝕍) : after (ops (F := Ideal)) V (Proc.devRef .tc main_arg1) = V (Proc.devRef .tc main_arg1) := by
  rw [ops_split, after_append, after_append, after_append, after_append, after_append, k6_arg1, k5_arg1, k4_arg1, k3_arg1,
    k2_arg1, k1_arg1]
theorem arg2_eq (V : 𝕍) : after (ops (F := Ideal)) V (Proc.devRef .tc main_arg2) = V (Proc.devRef .tc main_arg2) := by
  rw [ops_split, after_append, after_append, after_append, after_append, after_append, k6_arg2, k5_arg2, k4_arg2, k3_arg2,
    k2_arg2, k1_arg2]
theorem arg3_eq (V : 𝕍) : after (ops (F := Ideal)) V (Proc.devRef .tc main_arg3) = V (Proc.devRef .tc main_arg3) := by
  rw [ops_split, after_append, after_append, after_append, after_append, after_append, k6_arg3, k5_arg3, k4_arg3, k3_arg3,
    k2_arg3, k1_arg3]
theorem arg4_eq (V : 𝕍) : after (ops (F := Ideal)) V (Proc.devRef .tc main_arg4) = V (Proc.devRef .tc main_arg4) := by
  rw [ops_split, after_append, after_append, after_append, after_append, after_append, k6_arg4, k5_arg4, k4_arg4, k3_arg4,
    k2_arg4, k1_arg4]
theorem arg5_eq (V : 𝕍) : after (ops (F := Ideal)) V (Proc.devRef .tc main_arg5) = V (Proc.devRef .tc main_arg5) := by
  rw [ops_split, after_append, after_append, after_append, after_append, after_append, k6_arg5, k5_arg5, k4_arg5, k3_arg5,
    k2_arg5, k1_arg5]
theorem arg6_eq (V : 𝕍) : after (ops (F := Ideal)) V (Proc.devRef .tc main_arg6) = V (Proc.devRef .tc main_arg6) := by
  rw [ops_split, after_append, after_append, after_append, after_append, after_append, k6_arg6, k5_arg6, k4_arg6, k3_arg6,
    k2_arg6, k1_arg6]

attribute [local irreducible] Host.gather Host.scatterAdd Host.powf Host.expm1 in
set_option maxRecDepth 16384 in
set_option maxHeartbeats 2000000 in
/-- The fold of the 71 operations at the result buffer is `out` of the arguments' contents. Walked forward: after each
    stretch, what the factor column, that stretch's result and the arguments still to be read hold, as terms of the
    contents the line started from; the contents after the stretch are then forgotten. -/
theorem out_eq (V : 𝕍) :
    after (ops (F := Ideal)) V (Proc.devRef .tc main_v44)
      = out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [ops_split, after_append, after_append, after_append, after_append, after_append]
  -- after the first stretch
  have a_v7 : after (seg1 (F := Ideal)) V (Proc.devRef .tc main_v7) = nrmCol (V (Proc.devRef .tc main_arg6)) := seg1_v7 V
  have a_0 := k1_arg0 V
  have a_1 := k1_arg1 V
  have a_2 := k1_arg2 V
  have a_3 := k1_arg3 V
  have a_4 := k1_arg4 V
  have a_5 := k1_arg5 V
  have a_6 := k1_arg6 V
  generalize after (seg1 (F := Ideal)) V = W1 at *
  -- after the second
  have b_v19 : after (seg2 (F := Ideal)) W1 (Proc.devRef .tc main_v19)
      = aggOf (mulf (V (Proc.devRef .tc main_arg0)) (nrmMat (V (Proc.devRef .tc main_arg6)))) (V (Proc.devRef .tc main_arg5)) (V (Proc.devRef .tc main_arg6)) := by
    rw [seg2_v19, a_0, a_v7, a_5, a_6]; rfl
  have b_v7 := (k2_v7 W1).trans a_v7
  have b_1 := (k2_arg1 W1).trans a_1
  have b_2 := (k2_arg2 W1).trans a_2
  have b_3 := (k2_arg3 W1).trans a_3
  have b_4 := (k2_arg4 W1).trans a_4
  have b_5 := (k2_arg5 W1).trans a_5
  have b_6 := (k2_arg6 W1).trans a_6
  clear a_v7 a_0 a_1 a_2 a_3 a_4 a_5 a_6
  generalize after (seg2 (F := Ideal)) W1 = W2 at *
  -- after the third
  have c_v25 : after (seg3 (F := Ideal)) W2 (Proc.devRef .tc main_v25)
      = pre1 (V (Proc.devRef .tc main_arg0)) (V (Proc.devRef .tc main_arg1)) (V (Proc.devRef .tc main_arg2)) (V (Proc.devRef .tc main_arg5)) (V (Proc.devRef .tc main_arg6)) := by
    rw [seg3_v25, b_v7, b_v19, b_1, b_2]; rfl
  have c_v7 := (k3_v7 W2).trans b_v7
  have c_3 := (k3_arg3 W2).trans b_3
  have c_4 := (k3_arg4 W2).trans b_4
  have c_5 := (k3_arg5 W2).trans b_5
  have c_6 := (k3_arg6 W2).trans b_6
  clear b_v19 b_v7 b_1 b_2 b_3 b_4 b_5 b_6
  generalize after (seg3 (F := Ideal)) W2 = W3 at *
  -- after ELU
  have d_v26 : after (seg4 (F := Ideal)) W3 (Proc.devRef .tc main_v26)
      = eluArr (pre1 (V (Proc.devRef .tc main_arg0)) (V (Proc.devRef .tc main_arg1)) (V (Proc.devRef .tc main_arg2)) (V (Proc.devRef .tc main_arg5))
          (V (Proc.devRef .tc main_arg6))) := by
    rw [seg4_v26, c_v25]
  have d_v7 := (k4_v7 W3).trans c_v7
  have d_3 := (k4_arg3 W3).trans c_3
  have d_4 := (k4_arg4 W3).trans c_4
  have d_5 := (k4_arg5 W3).trans c_5
  have d_6 := (k4_arg6 W3).trans c_6
  clear c_v25 c_v7 c_3 c_4 c_5 c_6
  generalize after (seg4 (F := Ideal)) W3 = W4 at *
  -- after the fifth
  have e_v38 : after (seg5 (F := Ideal)) W4 (Proc.devRef .tc main_v38)
      = aggOf (mulf (eluArr (pre1 (V (Proc.devRef .tc main_arg0)) (V (Proc.devRef .tc main_arg1)) (V (Proc.devRef .tc main_arg2)) (V (Proc.devRef .tc main_arg5))
          (V (Proc.devRef .tc main_arg6)))) (nrmMat (V (Proc.devRef .tc main_arg6)))) (V (Proc.devRef .tc main_arg5)) (V (Proc.devRef .tc main_arg6)) := by
    rw [seg5_v38, d_v26, d_v7, d_5, d_6]; rfl
  have e_v7 := (k5_v7 W4).trans d_v7
  have e_3 := (k5_arg3 W4).trans d_3
  have e_4 := (k5_arg4 W4).trans d_4
  clear d_v26 d_v7 d_3 d_4 d_5 d_6
  generalize after (seg5 (F := Ideal)) W4 = W5 at *
  -- the last
  rw [seg6_v44, e_v7, e_v38, e_3, e_4]
  rfl

/-- On every device, from any memory with zero counters: every weakly fair execution of the reference terminates with the
    result at `out` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
          = out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v44).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _), (h c main_arg6).trans (arg6_eq _)⟩)
    (run_seq scopedRefs_eq scopedSems_eq defs main (fun _ => ops) main_eq (fun _ => ops_sub) m ρ)

end Cert.ReferenceIdeal.RefRun

end
-- ==== Proof.FiniteInputs.lean ====
/-
  The precondition `finite_inputs` tests, for each of the five float arrays, that every entry has absolute
  value below +∞, and takes the conjunction of the five tests. Read at the extended reals: an entry x with
  max x (-x) < ⊤ is neither ⊤ nor ⊥, so it is a real number. Hence, when the precondition holds, every
  entry of every float input is a real number.
-/
import proofs.«136916_j18047452578202_2_alg».proof.Pre_finite_inputs
import Idealize.ShloMosaic.PureOps.Ideal
import Idealize.ShloMosaic.Lib.ValueIdx
import Idealize.ShloMosaic.Lib.IdealHost
import Idealize.ShloMosaic.Lib.ReduceAll

noncomputable section

namespace Cert.FiniteInputs

open Idealize.ShloMosaic

/-- Every entry of an array of extended reals is a real number. -/
def AllReal {s : Idealize.ShloMosaic.Shape} (x : s.Idx → EReal) : Prop := ∀ i, ∃ r : ℝ, x i = (r : EReal)

/-- The shape of a scalar has exactly one index. -/
instance scalarIdx_subsingleton : Subsingleton (⟨0, ![]⟩ : Shape).Idx := ⟨fun a b => funext fun d => d.elim0⟩

/-- A truth value encoded as a one-bit word is the word 1 exactly when it is true. -/
theorem ofBool_eq_one (b : Bool) : BitVec.ofBool b = 1#1 ↔ b = true := by cases b <;> decide

/-- The f32 pattern 0x7F800000 denotes +∞. -/
theorem ofBits_inf : Ideal.ofBits .f32 0x7F800000#32 = (⊤ : EReal) := by simp [Ideal.ofBits, Ideal.ieee]

/-- An extended real whose absolute value max x (-x) is below +∞ is a real number:
    at x = ⊤ the maximum is ⊤, and at x = ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- One array's test: if the conjunction over all indices of |x i| < +∞ came out true, every entry of x is real.
    The conjunction being 1 gives the comparison 1 at each index i; the comparison reads max (x i) (-(x i)) < ⊤. -/
theorem allReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (⟨0, ![]⟩ : Shape) .f32 0x7F800000#32)))
          (constantI (⟨0, ![]⟩ : Shape) 1 1#1) hr hu ValueIdx.ix0 = 1#1) : AllReal x := by
  intro i
  have hi := Host.reduce_andi_all _ _ hr hu ValueIdx.ix0 e i
  rw [ValueIdx.cmpf_apply, ValueIdx.broadcastInDim_scalar_apply] at hi
  change BitVec.ofBool (decide (max (x i) (-(x i)) < Ideal.ofBits .f32 0x7F800000#32)) = 1#1 at hi
  rw [ofBits_inf, ofBool_eq_one] at hi
  exact real_of_abs_lt_top (x i) (of_decide_eq_true hi)

/-- The precondition decoded: when `finite_inputs` holds, every entry of each of the five float inputs is a real number.
    The result at its one index is a five-fold conjunction of the per-array tests; each conjunct is one array's test. -/
theorem allReal_of_pre [Cert.Pre_finite_inputs.Facts]
    (a0 : FVec Ideal Cert.Pre_finite_inputs.S100000x128 .f32) (a1 : FVec Ideal Cert.Pre_finite_inputs.S128x128 .f32)
    (a2 : FVec Ideal Cert.Pre_finite_inputs.S128 .f32) (a3 : FVec Ideal Cert.Pre_finite_inputs.S128x64 .f32)
    (a4 : FVec Ideal Cert.Pre_finite_inputs.S64 .f32) (a5 a6 : IVec Cert.Pre_finite_inputs.S1600000 32)
    (h : Cert.Pre_finite_inputs.fn (F := Ideal) a0 a1 a2 a3 a4 a5 a6 = fun _ => 1#1) :
    AllReal a0 ∧ AllReal a1 ∧ AllReal a2 ∧ AllReal a3 ∧ AllReal a4 := by
  have e := congrFun h ValueIdx.ix0
  dsimp only [Cert.Pre_finite_inputs.fn, Cert.Pre_finite_inputs.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allReal_of_all a0 _ _ _ e0, allReal_of_all a1 _ _ _ e1, allReal_of_all a2 _ _ _ e2,
    allReal_of_all a3 _ _ _ e3, allReal_of_all a4 _ _ _ e4⟩

end Cert.FiniteInputs

end
-- ==== Proof.Bridge.lean ====
/-
  The two programs end with the same result. Index by index both results are functions of the same data — the edges
  arriving at each node, each edge's source row, each node's factor, and the five float arguments —: the reference's is
  `refOut`, the other's `kerOut`, and the two agree when the features, the weights and the hidden bias are real numbers,
  which the precondition says of every float argument (the factors are real by construction). The run of the program with
  the fused dense block ends with its result buffer at the lines after the region folded over what the region leaves; the
  reference's run ends at its term `out`; so both end at `out` of the arguments, which neither changes.
-/
import proofs.«136916_j18047452578202_2_alg».proof.Defs
import proofs.«136916_j18047452578202_2_alg».proof.Proof.Gen.Pre_finite_inputs
import proofs.«136916_j18047452578202_2_alg».proof.Proof.KerValue
import proofs.«136916_j18047452578202_2_alg».proof.Proof.RefValue
import proofs.«136916_j18047452578202_2_alg».proof.Proof.RefWhole
import proofs.«136916_j18047452578202_2_alg».proof.Proof.FiniteInputs

set_option Elab.async false

noncomputable section

namespace Cert.Bridge

open Idealize.ShloMosaic Idealize.ShloMosaic.ValueIdx Idealize.ShloMosaic.TcCoe Idealize.SL.Sem Cert.Sgc
open Cert.FiniteInputs (AllReal)

/-! ## The two sides read the same index data -/

theorem dstCol_eq : Cert.KernelIdeal.KerValue.dstCol = Cert.ReferenceIdeal.RefRun.dstCol := rfl
theorem srcCol_eq : Cert.KernelIdeal.KerValue.srcCol = Cert.ReferenceIdeal.RefRun.srcCol := rfl

/-- The result of the program with the fused dense block at entry `(n, j)` is the reference's term at that entry, for
    real-valued features, weights and hidden bias. -/
theorem entry_eq (a0 : FVec Ideal Cert.ReferenceIdeal.S100000x128 .f32) (a1 : FVec Ideal Cert.ReferenceIdeal.S128x128 .f32)
    (a2 : FVec Ideal Cert.ReferenceIdeal.S128 .f32) (a3 : FVec Ideal Cert.ReferenceIdeal.S128x64 .f32)
    (a4 : FVec Ideal Cert.ReferenceIdeal.S64 .f32) (a5 a6 : IVec Cert.ReferenceIdeal.S1600000 32)
    (h0 : AllReal a0) (h1 : AllReal a1) (h2 : AllReal a2) (h3 : AllReal a3) (n : Fin 100000) (j : Fin 64) :
    kerOut (Cert.KernelIdeal.KerValue.SE a6) (Cert.KernelIdeal.KerValue.src a5) (Cert.KernelIdeal.KerValue.nu a6)
        (fun n l => a0 (ix2 n l)) (fun l k => a1 (ix2 l k)) (fun k => a2 (ix1 k)) (fun k j => a3 (ix2 k j))
        (fun j => a4 (ix1 j)) n j
      = Cert.ReferenceIdeal.RefRun.out a0 a1 a2 a3 a4 a5 a6 (ix2 n j) := by
  rw [Cert.ReferenceIdeal.RefValue.out_apply]
  show kerOut (Cert.ReferenceIdeal.RefValue.SE a6) (Cert.ReferenceIdeal.RefValue.src a5) (Cert.ReferenceIdeal.RefValue.nu a6)
      _ _ _ _ _ n j = _
  exact congrFun (congrFun (kerOut_eq_refOut (b2 := fun j => a4 (ix1 j)) (fun n => nrmOf_real _ n) (fun n l => h0 (ix2 n l))
    (fun l k => h1 (ix2 l k)) (fun k => h2 (ix1 k)) (fun k j => h3 (ix2 k j))) n) j

/-! ## The claim about the two idealized programs -/

/-- From memories agreeing on the arguments both programs run, end with the same result — `out` of the arguments —
    and leave the arguments unchanged. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.ReferenceIdeal.RefRun.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · -- the program with the fused dense block
    refine (θ_run Cert.KernelIdeal.defs _ _).mono (fun r h c => ?_) (Cert.KernelIdeal.Gen.run_main m ρ)
    obtain ⟨h0, h1, h2, h3, -⟩ := Cert.FiniteInputs.allReal_of_pre _ _ _ _ _ _ _ (hpre c)
    refine ⟨?_,
      (((h c).2 Cert.KernelIdeal.main_arg0 (Pipeline.mem_restRefs_of Cert.KernelIdeal.main_arg0 (by decide) (by decide))).trans
        (Cert.KernelIdeal.Gen.W_main_arg0 m (Cert.KernelIdeal.Gen.dats m) c)),
      ((h c).1 2).trans (((Cert.KernelIdeal.Gen.dats m 0 c).arrAt_in 2 rfl _).trans
        ((Cert.KernelIdeal.Gen.A_eq m c 2).trans (Cert.KernelIdeal.Gen.V_main_arg1 m c))),
      (((h c).2 Cert.KernelIdeal.main_arg2 (Pipeline.mem_restRefs_of Cert.KernelIdeal.main_arg2 (by decide) (by decide))).trans
        (Cert.KernelIdeal.Gen.W_main_arg2 m (Cert.KernelIdeal.Gen.dats m) c)),
      ((h c).1 4).trans (((Cert.KernelIdeal.Gen.dats m 0 c).arrAt_in 4 rfl _).trans
        ((Cert.KernelIdeal.Gen.A_eq m c 4).trans (Cert.KernelIdeal.Gen.V_main_arg3 m c))),
      (((h c).2 Cert.KernelIdeal.main_arg4 (Pipeline.mem_restRefs_of Cert.KernelIdeal.main_arg4 (by decide) (by decide))).trans
        (Cert.KernelIdeal.Gen.W_main_arg4 m (Cert.KernelIdeal.Gen.dats m) c)),
      (((h c).2 Cert.KernelIdeal.main_arg5 (Pipeline.mem_restRefs_of Cert.KernelIdeal.main_arg5 (by decide) (by decide))).trans
        (Cert.KernelIdeal.Gen.W_main_arg5 m (Cert.KernelIdeal.Gen.dats m) c)),
      (((h c).2 Cert.KernelIdeal.main_arg6 (Pipeline.mem_restRefs_of Cert.KernelIdeal.main_arg6 (by decide) (by decide))).trans
        (Cert.KernelIdeal.Gen.W_main_arg6 m (Cert.KernelIdeal.Gen.dats m) c))⟩
    refine ((h c).2 Cert.KernelIdeal.main_v38 (Pipeline.mem_restRefs_of Cert.KernelIdeal.main_v38 (by decide) (by decide))).trans ?_
    refine funext fun i => ?_
    obtain ⟨n, j, rfl⟩ : ∃ (n : Fin 100000) (j : Fin 64), i = ix2 n j := ⟨i 0, i 1, eq_ix2 (n0 := 100000) (n1 := 64) i⟩
    exact (Cert.KernelIdeal.KerValue.ker_entry m c n j).trans (entry_eq _ _ _ _ _ _ _ h0 h1 h2 h3 n j)
  · -- the reference, from the agreeing memory
    refine (θ_run Cert.ReferenceIdeal.defs _ _).mono (fun r h c => ?_) (Cert.ReferenceIdeal.RefRun.run m' ρ')
    obtain ⟨e0, e1, e2, e3, e4, e5, e6⟩ := hagree c
    refine ⟨?_, (h c).2⟩
    rw [(h c).1, e0, e1, e2, e3, e4, e5, e6]

end Cert.Bridge

end
-- ==== Proof.lean ====
/-
  Two graph-convolution programs — the reference, which propagates the hidden layer and then applies the second weight
  matrix, and a program that fuses "scale, first dense layer, ELU, second dense layer" into one blocked region and
  propagates the narrower array afterwards — end, on extended reals and from finite float inputs, with the same result.
  The frames of the two programs with a region are their generated frame certificates; the reference's frame is its run
  with the result dropped; nothing was rewritten when the region's program was read at the ideal values; and the equality
  of the results is `Cert.Bridge.algebraic`: both results are, entry by entry, functions of the same edge sets, source
  rows, node factors and arguments, and propagation commutes with a dense map on the right for real-valued data.
-/
import proofs.«136916_j18047452578202_2_alg».proof.Defs
import proofs.«136916_j18047452578202_2_alg».proof.Proof.Gen.Kernel
import proofs.«136916_j18047452578202_2_alg».proof.Proof.Gen.Kernel.Skeleton
import proofs.«136916_j18047452578202_2_alg».proof.Proof.Gen.Kernel.Launch
import proofs.«136916_j18047452578202_2_alg».proof.Proof.Gen.Kernel.Points
import proofs.«136916_j18047452578202_2_alg».proof.Proof.Gen.Kernel.Frame
import proofs.«136916_j18047452578202_2_alg».proof.Proof.Gen.KernelIdeal
import proofs.«136916_j18047452578202_2_alg».proof.Proof.Gen.KernelIdeal.Skeleton
import proofs.«136916_j18047452578202_2_alg».proof.Proof.Gen.KernelIdeal.Launch
import proofs.«136916_j18047452578202_2_alg».proof.Proof.Gen.KernelIdeal.Points
import proofs.«136916_j18047452578202_2_alg».proof.Proof.Gen.KernelIdeal.Frame
import proofs.«136916_j18047452578202_2_alg».proof.Proof.Gen.ReferenceIdeal
import proofs.«136916_j18047452578202_2_alg».proof.Proof.Gen.Pre_finite_inputs
import proofs.«136916_j18047452578202_2_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Bridge.algebraic⟩

end Cert.Proof

end
